-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x3 : Shape := ⟨3, ![4, 4096, 3]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel

variable [Facts]

def fn {F : FTy → Type} [FloatOps F] (main_arg0 : FVec F S4x4096x3 .f32) (main_arg1 : FVec F S4x4096x3 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S4x4096x3 .f32 := Host.absf main_arg1
  let main_cst_0 : FVec F S_ .f32 := constant S_ .f32 0x7F800000#32
  let main_v5 : FVec F S4x4096x3 .f32 := broadcastInDim S4x4096x3 ![] bcast_S_S4x4096x3 main_cst_0
  let main_v6 : IVec S4x4096x3 1 := cmpf .olt main_v4 main_v5
  let main_c_1 : IVec S_ 1 := constantI S_ 1 1#1
  let main_v7 : IVec S_ 1 := (fun x v => Host.reduce IntOp.andi x v reducesTo_S4x4096x3_S_d0_1_2 h_S_) main_v6 main_c_1
  let main_v8 : IVec S_ 1 := andi main_v3 main_v7
  main_v8
-- ==== Kernel.lean ====
abbrev S4x4096x3 : Shape := ⟨3, ![4, 4096, 3]⟩
abbrev S4x3x4096 : Shape := ⟨3, ![4, 3, 4096]⟩
abbrev S4x4096 : Shape := ⟨2, ![4, 4096]⟩
abbrev S8x4x4096 : Shape := ⟨3, ![8, 4, 4096]⟩
abbrev S4x3x512 : Shape := ⟨3, ![4, 3, 512]⟩
abbrev S4x512 : Shape := ⟨2, ![4, 512]⟩
abbrev S1x4x512 : Shape := ⟨3, ![1, 4, 512]⟩
abbrev S4x512x512 : Shape := ⟨3, ![4, 512, 512]⟩
abbrev S4x1x512 : Shape := ⟨3, ![4, 1, 512]⟩
abbrev S4x512x1 : Shape := ⟨3, ![4, 512, 1]⟩
abbrev S_ : Shape := ⟨0, ![]⟩
abbrev S4 : Shape := ⟨1, ![4]⟩

abbrev nBuf : Space → Nat
  | .hbm => 28
  | .vmem => 9
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x3x4096, .f32⟩
  | .hbm, ⟨3, _⟩ => ⟨S4x3x4096, .f32⟩
  | .hbm, ⟨4, _⟩ => ⟨S4x4096, .f32⟩
  | .hbm, ⟨5, _⟩ => ⟨S8x4x4096, .f32⟩
  | .hbm, ⟨6, _⟩ => ⟨S_, .f32⟩
  | .hbm, ⟨7, _⟩ => ⟨S4x4096, .f32⟩
  | .hbm, ⟨8, _⟩ => ⟨S_, .f32⟩
  | .hbm, ⟨9, _⟩ => ⟨S4, .f32⟩
  | .hbm, ⟨10, _⟩ => ⟨S_, .f32⟩
  | .hbm, ⟨11, _⟩ => ⟨S4, .f32⟩
  | .hbm, ⟨12, _⟩ => ⟨S4, .f32⟩
  | .hbm, ⟨13, _⟩ => ⟨S_, .f32⟩
  | .hbm, ⟨14, _⟩ => ⟨S4, .f32⟩
  | .hbm, ⟨15, _⟩ => ⟨S_, .f32⟩
  | .hbm, ⟨16, _⟩ => ⟨S4, .f32⟩
  | .hbm, ⟨17, _⟩ => ⟨S4, .f32⟩
  | .hbm, ⟨18, _⟩ => ⟨S4, .f32⟩
  | .hbm, ⟨19, _⟩ => ⟨S_, .f32⟩
  | .hbm, ⟨20, _⟩ => ⟨S4, .f32⟩
  | .hbm, ⟨21, _⟩ => ⟨S4, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .local _ .vmem, ⟨0, _⟩ => ⟨S4x3x512, .f32⟩
  | .local _ .vmem, ⟨1, _⟩ => ⟨S4x3x512, .f32⟩
  | .local _ .vmem, ⟨2, _⟩ => ⟨S4x3x512, .f32⟩
  | .local _ .vmem, ⟨3, _⟩ => ⟨S4x3x512, .f32⟩
  | .local _ .vmem, ⟨4, _⟩ => ⟨S4x512, .f32⟩
  | .local _ .vmem, ⟨5, _⟩ => ⟨S4x512, .f32⟩
  | .local _ .vmem, ⟨6, _⟩ => ⟨S1x4x512, .f32⟩
  | .local _ .vmem, ⟨7, _⟩ => ⟨S1x4x512, .f32⟩
  | .local _ .vmem, ⟨8, _⟩ => ⟨S4x512, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_cst_3 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_4 : Ref sig .tc := ⟨.hbm, 19, rfl⟩
abbrev main_v11 : Ref sig .tc := ⟨.hbm, 20, rfl⟩
abbrev main_v12 : Ref sig .tc := ⟨.hbm, 21, rfl⟩
abbrev main_cst_5 : Ref sig .tc := ⟨.hbm, 22, rfl⟩
abbrev main_v13 : Ref sig .tc := ⟨.hbm, 23, rfl⟩
abbrev main_cst_6 : Ref sig .tc := ⟨.hbm, 24, rfl⟩
abbrev main_v14 : Ref sig .tc := ⟨.hbm, 25, rfl⟩
abbrev main_cst_7 : Ref sig .tc := ⟨.hbm, 26, rfl⟩
abbrev main_v15 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v47 : BitVec 1 := Scalar.cmpi .eq arg1 c7_i32
  let v48 : BitVec 32 := Scalar.extui v47
  let c0_i32_11 : BitVec 32 := 0#32
  let v49 : BitVec 1 := Scalar.cmpi .ne v48 c0_i32_11
  v49

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S4x3x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S4x4096x3_S4x3x4096_0_2_1 : S4x4096x3.Transposes [0, 2, 1] S4x3x4096
  inb_S4x512_S4x512_0_0 : ∀ a, (![0, 0] : Fin 2 → Nat) a + S4x512.size a ≤ S4x512.size a
  h_S4x512 : 0 < S4x512.numel
  shapeCasts_S4x512_S4x512 : S4x512.ShapeCasts S4x512
  inb_S4x3x512_S4x3x512_0_0_0 : ∀ a, (![0, 0, 0] : Fin 3 → Nat) a + S4x3x512.size a ≤ S4x3x512.size a
  h_S4x3x512 : 0 < S4x3x512.numel
  shapeCasts_S4x3x512_S4x3x512 : S4x3x512.ShapeCasts S4x3x512
  slices_S4x3x512_o0_0_0_S4x1x512 : S4x3x512.Slices ![0, 0, 0] S4x1x512
  shapeCasts_S4x1x512_S4x512 : S4x1x512.ShapeCasts S4x512
  shapeCasts_S4x512_S4x512x1 : S4x512.ShapeCasts S4x512x1
  shapeCasts_S4x512_S4x1x512 : S4x512.ShapeCasts S4x1x512
  broadcasts_S4x512x1_S4x512x512 : S4x512x1.Broadcasts S4x512x512
  broadcasts_S4x1x512_S4x512x512 : S4x1x512.Broadcasts S4x512x512
  slices_S4x3x512_o0_1_0_S4x1x512 : S4x3x512.Slices ![0, 1, 0] S4x1x512
  slices_S4x3x512_o0_2_0_S4x1x512 : S4x3x512.Slices ![0, 2, 0] S4x1x512
  reduces_S4x512x512_S4x512 : S4x512x512.Reduces [2] S4x512
  reduces_S4x512x512_S4x512_2 : S4x512x512.Reduces [1] S4x512
  shapeCasts_S4x512_S1x4x512 : S4x512.ShapeCasts S1x4x512
  inb_S1x4x512_S1x4x512_0_0_0 : ∀ a, (![0, 0, 0] : Fin 3 → Nat) a + S1x4x512.size a ≤ S1x4x512.size a
  h_S1x4x512 : 0 < S1x4x512.numel
  reducesTo_S8x4x4096_S4x4096_d0 : S8x4x4096.ReducesTo [0] S4x4096
  h_S_ : 0 < S_.numel
  reducesTo_S4x4096_S4_d1 : S4x4096.ReducesTo [1] S4
  bcast_S_S4 : S_.BroadcastsInDim S4 (![] : Fin 0 → Fin S4.rank)
  reducesTo_S4_S_d0 : S4.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x3x512.size a ≤ S4x3x4096.size a
  hwx0_0 : ∀ i : grid0.Coords, EltTy.bits .f32 = 32 ∨ (Rect.block (s := S4x3x4096) S4x3x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x3x512.size a ≤ S4x3x4096.size a
  hwx0_1 : ∀ i : grid0.Coords, EltTy.bits .f32 = 32 ∨ (Rect.block (s := S4x3x4096) S4x3x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512.size a ≤ S4x4096.size a
  hwx0_2 : ∀ i : grid0.Coords, EltTy.bits .f32 = 32 ∨ (Rect.block (s := S4x4096) S4x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4x512.size a ≤ S8x4x4096.size a
  hwx0_3 : ∀ i : grid0.Coords, EltTy.bits .f32 = 32 ∨ (Rect.block (s := S8x4x4096) S1x4x512.size (cc0_transform_3 i) (hinb0_3 i)).WholeWords (EltTy.packing .f32)

variable [Facts₀]

abbrev win0_0 : Pipeline.Window sig grid0 :=
  Pipeline.Window.ofSpec (Memref.whole main_v0) S4x3x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x3x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S4x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x4x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun _ => false | ⟨_ + 4, h⟩ => absurd h (Nat.not_lt.2 (Nat.le_add_left _ _))

class Facts : Prop extends Facts₀ where

variable [Facts]
-- ==== ReferenceIdeal.lean ====
abbrev S4x4096x3 : Shape := ⟨3, ![4, 4096, 3]⟩
abbrev S_ : Shape := ⟨0, ![]⟩
abbrev S4x4096 : Shape := ⟨2, ![4, 4096]⟩
abbrev S4x4096x4096 : Shape := ⟨3, ![4, 4096, 4096]⟩
abbrev S4x4096x1 : Shape := ⟨3, ![4, 4096, 1]⟩
abbrev S4x1x4096 : Shape := ⟨3, ![4, 1, 4096]⟩
abbrev S4 : Shape := ⟨1, ![4]⟩

abbrev nBuf : Space → Nat
  | .hbm => 42
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x3, .f32⟩
  | .hbm, ⟨3, _⟩ => ⟨S_, .f32⟩
  | .hbm, ⟨4, _⟩ => ⟨S4x4096, .f32⟩
  | .hbm, ⟨5, _⟩ => ⟨S4x4096x3, .f32⟩
  | .hbm, ⟨6, _⟩ => ⟨S_, .f32⟩
  | .hbm, ⟨7, _⟩ => ⟨S4x4096, .f32⟩
  | .hbm, ⟨8, _⟩ => ⟨S4x4096x4096, .f32⟩
  | .hbm, ⟨9, _⟩ => ⟨S4x4096x1, .f32⟩
  | .hbm, ⟨10, _⟩ => ⟨S4x1x4096, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S_, .f32⟩
  | .hbm, ⟨15, _⟩ => ⟨S4x4096x4096, .f32⟩
  | .hbm, ⟨16, _⟩ => ⟨S4x4096x4096, .f32⟩
  | .hbm, ⟨17, _⟩ => ⟨S4x4096x4096, .f32⟩
  | .hbm, ⟨18, _⟩ => ⟨S_, .f32⟩
  | .hbm, ⟨19, _⟩ => ⟨S4x4096, .f32⟩
  | .hbm, ⟨20, _⟩ => ⟨S_, .f32⟩
  | .hbm, ⟨21, _⟩ => ⟨S4, .f32⟩
  | .hbm, ⟨22, _⟩ => ⟨S_, .f32⟩
  | .hbm, ⟨23, _⟩ => ⟨S4, .f32⟩
  | .hbm, ⟨24, _⟩ => ⟨S4, .f32⟩
  | .hbm, ⟨25, _⟩ => ⟨S_, .f32⟩
  | .hbm, ⟨26, _⟩ => ⟨S4x4096, .f32⟩
  | .hbm, ⟨27, _⟩ => ⟨S_, .f32⟩
  | .hbm, ⟨28, _⟩ => ⟨S4, .f32⟩
  | .hbm, ⟨29, _⟩ => ⟨S_, .f32⟩
  | .hbm, ⟨30, _⟩ => ⟨S4, .f32⟩
  | .hbm, ⟨31, _⟩ => ⟨S4, .f32⟩
  | .hbm, ⟨32, _⟩ => ⟨S4, .f32⟩
  | .hbm, ⟨33, _⟩ => ⟨S_, .f32⟩
  | .hbm, ⟨34, _⟩ => ⟨S4, .f32⟩
  | .hbm, ⟨35, _⟩ => ⟨S4, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_cst_9 : Ref sig .tc := ⟨.hbm, 36, rfl⟩
abbrev main_v24 : Ref sig .tc := ⟨.hbm, 37, rfl⟩
abbrev main_cst_10 : Ref sig .tc := ⟨.hbm, 38, rfl⟩
abbrev main_v25 : Ref sig .tc := ⟨.hbm, 39, rfl⟩
abbrev main_cst_11 : Ref sig .tc := ⟨.hbm, 40, rfl⟩
abbrev main_v26 : Ref sig .tc := ⟨.hbm, 41, rfl⟩

abbrev nD : Nat := 1
abbrev τ : Topo := Topo.v7x

variable {F : FTy → Type} [FloatOps F]

class Facts₀ : Prop where
  reducesTo_S4x4096x3_S4x4096_d2 : S4x4096x3.ReducesTo [2] S4x4096
  h_S_ : 0 < S_.numel
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  reducesTo_S4x4096x4096_S4x4096_d1 : S4x4096x4096.ReducesTo [1] S4x4096
  reducesTo_S4x4096_S4_d1 : S4x4096.ReducesTo [1] S4
  bcast_S_S4 : S_.BroadcastsInDim S4 (![] : Fin 0 → Fin S4.rank)
  reducesTo_S4x4096x4096_S4x4096_d2 : S4x4096x4096.ReducesTo [2] S4x4096
  reducesTo_S4_S_d0 : S4.ReducesTo [0] S_
  dot_S4x4096x3_S4x4096x3_S4x4096x4096_2_2_1_1_0_0_wf : DotDims.WF S4x4096x3 S4x4096x3 S4x4096x4096 [2] [2] [1] [1] [0] [0]

variable [Facts₀]

def dot_S4x4096x3_S4x4096x3_S4x4096x4096_2_2_1_1_0_0 : DotDims S4x4096x3 S4x4096x3 S4x4096x4096 where
  lhsContracting := [2]
  rhsContracting := [2]
  lhsNonContracting := [1]
  rhsNonContracting := [1]
  lhsBatch := [0]
  rhsBatch := [0]
  wf := dot_S4x4096x3_S4x4096x3_S4x4096x4096_2_2_1_1_0_0_wf

class Facts : Prop extends Facts₀ where

variable [Facts]
-- ==== Proof.Spec.lean ====
/-
  What both programs compute, stated over the two argument arrays of points x, y : [4, 4096, 3].

  The squared distance between point n of x and point m of y (in batch b) is written two ways. The kernel adds the
  three squared coordinate differences to zero, one after another (`sqK`). The reference expands the square:
  the sum of squares of the first point, plus that of the second, minus twice their inner product (`sqR`). On real
  coordinates the two agree; at an infinite coordinate they need not, which is why finiteness of the inputs is used.

  From the array of squared distances both programs take, for each point of x, the minimum over the points of y
  ("row minimum") and, for each point of y, the minimum over the points of x ("column minimum"). A minimum is
  pinned down here by its universal property rather than by an order of evaluation: a bound is below it exactly when
  it is below every entry. Two arrays with that property for the same distances are equal.

  Both programs then finish identically (`tail`): the mean of each array of minima over its 4096 points, the two
  means added, halved, averaged over the 4 batches, and scaled by 100.
-/
import Idealize.ShloMosaic.PureOps
import Idealize.ShloMosaic.PureOps.Ideal
import Idealize.ShloMosaic.Lib.ValueIdx

noncomputable section

namespace Cert.Chamfer

open Idealize.ShloMosaic Idealize.ShloMosaic.ValueIdx

/-- The shapes of the specification, as literals. -/
abbrev P4x4096x3 : Shape := ⟨3, ![4, 4096, 3]⟩
abbrev P4x4096 : Shape := ⟨2, ![4, 4096]⟩
abbrev P4 : Shape := ⟨1, ![4]⟩
abbrev P0 : Shape := ⟨0, ![]⟩

/-- The squared distance as the kernel accumulates it: zero, plus each squared coordinate difference in turn. -/
def sqK (a b : Fin 3 → EReal) : EReal :=
  Ideal.ofBits .f32 0x00000000#32 + (a 0 - b 0) * (a 0 - b 0) + (a 1 - b 1) * (a 1 - b 1) + (a 2 - b 2) * (a 2 - b 2)

/-- The squared distance as the reference expands it: |a|² + |b|² − 2 ⟨a, b⟩, each sum started from zero. -/
def sqR (a b : Fin 3 → EReal) : EReal :=
  (Ideal.ofBits .f32 0x00000000#32 + ∑ k : Fin 3, a k * a k) + (Ideal.ofBits .f32 0x00000000#32 + ∑ k : Fin 3, b k * b k)
    - Ideal.ofBits .f32 0x40000000#32 * ∑ k : Fin 3, a k * b k

/-- Point `n` of batch `b` of an array of points: its three coordinates. -/
def pt (x : P4x4096x3.Idx → EReal) (b : Fin 4) (n : Fin 4096) : Fin 3 → EReal := fun d => x (ix3 b n d)

/-- The squared distances between the points of x and of y, in the kernel's form and in the reference's. -/
def dK (x y : P4x4096x3.Idx → EReal) (b : Fin 4) (n m : Fin 4096) : EReal := sqK (pt x b n) (pt y b m)
def dR (x y : P4x4096x3.Idx → EReal) (b : Fin 4) (n m : Fin 4096) : EReal := sqR (pt x b n) (pt y b m)

/-- `R` holds, for each point n of x, the minimum of `D b n ·` over the points of y. -/
def IsRowMin (D : Fin 4 → Fin 4096 → Fin 4096 → EReal) (R : P4x4096.Idx → EReal) : Prop :=
  ∀ (b : Fin 4) (n : Fin 4096) (z : EReal), z ≤ R (ix2 b n) ↔ ∀ m : Fin 4096, z ≤ D b n m

/-- `C` holds, for each point m of y, the minimum of `D b · m` over the points of x. -/
def IsColMin (D : Fin 4 → Fin 4096 → Fin 4096 → EReal) (C : P4x4096.Idx → EReal) : Prop :=
  ∀ (b : Fin 4) (m : Fin 4096) (z : EReal), z ≤ C (ix2 b m) ↔ ∀ n : Fin 4096, z ≤ D b n m

/-- The row minima of one array of distances are unique. -/
theorem IsRowMin.unique {D : Fin 4 → Fin 4096 → Fin 4096 → EReal} {R R' : P4x4096.Idx → EReal}
    (h : IsRowMin D R) (h' : IsRowMin D R') : R = R' := by
  funext j
  rw [eq_ix2 j]
  exact eq_of_forall_le_iff fun z => (h _ _ z).trans (h' _ _ z).symm

/-- The column minima of one array of distances are unique. -/
theorem IsColMin.unique {D : Fin 4 → Fin 4096 → Fin 4096 → EReal} {C C' : P4x4096.Idx → EReal}
    (h : IsColMin D C) (h' : IsColMin D C') : C = C' := by
  funext j
  rw [eq_ix2 j]
  exact eq_of_forall_le_iff fun z => (h _ _ z).trans (h' _ _ z).symm

/-- What both programs do with the two arrays of minima: 100 · mean over the batches of ½ · (mean of the column
    minima + mean of the row minima), each mean a host sum from zero divided by the count. -/
def tail (h1 : P4x4096.ReducesTo [1] P4) (hu : 0 < P0.numel) (hb : P0.BroadcastsInDim P4 (![] : Fin 0 → Fin P4.rank))
    (h0 : P4.ReducesTo [0] P0) (colmin rowmin : FVec Ideal P4x4096 .f32) : FVec Ideal P0 .f32 :=
  mulf (constant (F := Ideal) P0 .f32 0x42C80000#32)
    (Host.divf
      (Host.reduceAdd
        (mulf (broadcastInDim P4 ![] hb (constant (F := Ideal) P0 .f32 0x3F000000#32))
          (addf
            (Host.divf (Host.reduceAdd colmin (constant (F := Ideal) P0 .f32 0x00000000#32) h1 hu)
              (broadcastInDim P4 ![] hb (constant (F := Ideal) P0 .f32 0x45800000#32)))
            (Host.divf (Host.reduceAdd rowmin (constant (F := Ideal) P0 .f32 0x00000000#32) h1 hu)
              (broadcastInDim P4 ![] hb (constant (F := Ideal) P0 .f32 0x45800000#32)))))
        (constant (F := Ideal) P0 .f32 0x00000000#32) h0 hu)
      (constant (F := Ideal) P0 .f32 0x40800000#32))

end Cert.Chamfer

end
-- ==== Proof.Algebra.lean ====
/-
  The two ways of writing the squared distance between two points of three real coordinates agree:
  the sum of the squared coordinate differences equals |a|² + |b|² − 2 ⟨a, b⟩. Over the extended reals this
  is a statement about real numbers only: once every coordinate is the image of a real, both sides are
  images of reals, the image map commutes with sum, difference and product, and the identity is the
  binomial expansion (a - b)² = a² + b² - 2ab summed over the three coordinates.
-/
import proofs.«117909_j69870527971439_2_alg».proof.Proof.Spec
import Idealize.ShloMosaic.PureOps.Ideal.Laws

noncomputable section

namespace Cert.Chamfer

open Idealize.ShloMosaic Idealize.ShloMosaic.ValueIdx

/-- The f32 word 0x40000000 denotes the real number two. -/
theorem ofBits_two_f32 : Ideal.ofBits .f32 0x40000000#32 = ((2 : ℝ) : EReal) := by
  simp [Ideal.ofBits, Ideal.ieee, -EReal.coe_mul]; norm_num

/-- The binomial expansion, coordinate by coordinate, inside the extended reals at real arguments. -/
theorem sqK_eq_sqR_coe (r s : Fin 3 → ℝ) :
    sqK (fun k => (r k : EReal)) (fun k => (s k : EReal)) = sqR (fun k => (r k : EReal)) (fun k => (s k : EReal)) := by
  unfold sqK sqR
  rw [Ideal.ofBits_zero_f32, ofBits_two_f32, Fin.sum_univ_three, Fin.sum_univ_three, Fin.sum_univ_three]
  simp only [← EReal.coe_zero, ← EReal.coe_sub, ← EReal.coe_mul, ← EReal.coe_add]
  rw [EReal.coe_eq_coe_iff]
  ring

/-- On points with real coordinates the kernel's and the reference's squared distances agree. -/
theorem sqK_eq_sqR (a b : Fin 3 → EReal) (ha : ∀ k, ∃ r : ℝ, a k = (r : EReal)) (hb : ∀ k, ∃ r : ℝ, b k = (r : EReal)) :
    sqK a b = sqR a b := by
  choose r hr using ha
  choose s hs using hb
  obtain rfl : a = fun k => (r k : EReal) := funext hr
  obtain rfl : b = fun k => (s k : EReal) := funext hs
  exact sqK_eq_sqR_coe r s

/-- The two arrays of squared distances between two clouds of real points agree. -/
theorem dK_eq_dR (x y : P4x4096x3.Idx → EReal) (hx : ∀ i, ∃ r : ℝ, x i = (r : EReal)) (hy : ∀ i, ∃ r : ℝ, y i = (r : EReal)) :
    dK x y = dR x y := by
  funext b n m
  exact sqK_eq_sqR _ _ (fun k => hx _) (fun k => hy _)

end Cert.Chamfer

end
-- ==== Proof.Finite.lean ====
/-
  Finiteness of the inputs, read out of the precondition. The precondition says that the conjunction over all
  entries of |x| < +∞, for each of the two argument arrays, is true. A conjunction over all entries that is true
  is true at each entry; and an extended real whose absolute value max x (-x) lies strictly below +∞ is neither
  +∞ nor -∞ (the absolute value of either is +∞), hence is a real number.
-/
import proofs.«117909_j69870527971439_2_alg».proof.Defs
import Idealize.ShloMosaic.Lib.ReduceAll
import Idealize.ShloMosaic.Lib.ValueIdx
import Idealize.ShloMosaic.PureOps.Ideal.Laws

noncomputable section

namespace Cert.Chamfer

open Idealize.ShloMosaic Idealize.SL.Sem

/-- An extended real whose absolute value is strictly below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The same, with the comparison and the bound spelt as the printed predicate spells them: the comparison
    |x| < b evaluating to true, b being the f32 word of +∞. -/
theorem real_of_cmp (x : Ideal .f32)
    (h : FloatOps.cmpf (F := Ideal) .olt (FloatOps.hostAbsf x) (FloatOps.ofBits .f32 0x7F800000#32) = 1#1) :
    ∃ r : ℝ, x = (r : EReal) := by
  apply real_of_abs_lt_top
  have hb : Ideal.ofBits .f32 0x7F800000#32 = (⊤ : EReal) := by simp [Ideal.ofBits, Ideal.ieee]
  rw [Ideal.cmpf_def, Ideal.hostAbsf_def, Ideal.absf_def, Ideal.ofBits_def, hb] at h
  by_contra hn
  simp [Ideal.cmp, hn] at h

/-- The result of a reduction over all axes has a single index. -/
instance : Subsingleton Cert.Pre_finite_inputs.S_.Idx := ⟨fun a b => funext fun d => d.elim0⟩

open Cert.Pre_finite_inputs in
/-- One half of the predicate: if "every entry of |x| is below +∞" evaluates to true, every entry of x is real. -/
theorem all_real [Cert.Pre_finite_inputs.Facts] (x : FVec Ideal S4x4096x3 .f32) (j : S_.Idx)
    (h : Host.reduce IntOp.andi
          (cmpf .olt (Host.absf x) (broadcastInDim S4x4096x3 ![] Facts.bcast_S_S4x4096x3 (constant S_ .f32 0x7F800000#32)))
          (constantI S_ 1 1#1) Facts.reducesTo_S4x4096x3_S_d0_1_2 Facts.h_S_ j = 1#1) (i : S4x4096x3.Idx) :
    ∃ r : ℝ, x i = (r : EReal) :=
  real_of_cmp (x i) (Host.reduce_andi_all _ _ _ _ j h i)

/-- The precondition makes every entry of both argument arrays a real number. -/
theorem finite_of_pre [Cert.Pre_finite_inputs.Facts] [Cert.KernelIdeal.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal)) := by
  have e := congrFun (h c) ValueIdx.ix0
  dsimp only [Cert.Pre_finite_inputs.fn, andi] at e
  obtain ⟨e0, e1⟩ := IntOp.andi_eq_one.1 e
  exact ⟨fun i => all_real _ _ e0 i, fun i => all_real _ _ e1 i⟩

end Cert.Chamfer

end
-- ==== Proof.LibMinReduce.lean ====
/-
  A minimum taken over one axis of an array of extended reals, read at a result index by its universal property:
  a bound lies below the minimum exactly when it lies below the starting value and below every entry along that axis.
  Stated for the vector unit's reduction and for the host's, so that two minima folded in different orders, or tile
  by tile, can be compared without choosing an order.
-/
import Idealize.ShloMosaic.PureOps.Ideal
import Idealize.ShloMosaic.PureOps.Ideal.Laws
import Idealize.ShloMosaic.PureOps.Reduce

noncomputable section

namespace Cert.LibMinReduce

open Idealize.ShloMosaic

variable {φ : FTy}

/-- The f32 word of plus infinity is the top of the extended reals. -/
theorem ofBits_inf_f32 : Ideal.ofBits .f32 0x7F800000#32 = (⊤ : EReal) := by
  simp [Ideal.ofBits, Ideal.ieee]

/-- The vector unit's minimum over one axis is the fold of `min` from the accumulator's value over that axis's
    coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- A bound is below the vector unit's minimum over one axis exactly when it is below the accumulator's value and
    below every entry along the axis. -/
theorem le_multiReduction_minimumf_iff {s t : Shape} {a : Fin s.rank} (src : FVec Ideal s φ) (acc : BitVec φ.bits)
    (h : s.Reduces [a] t) (hφ : FKind.Formats φ) (hacc : acc = FKind.minimumf.neutral φ hφ) (j : t.Idx) (z : EReal) :
    z ≤ multiReduction .minimumf [a] t src acc h hφ hacc j
      ↔ z ≤ Ideal.ofBits φ acc ∧ ∀ k : Fin (s.size a), z ≤ src (h.lift j k) := by
  rw [multiReduction_minimumf_single, Finset.le_fold_min]
  exact and_congr Iff.rfl ⟨fun hk k => hk k (Finset.mem_univ k), fun hk k _ => hk k⟩

/-- The same for the host's minimum over one axis, from its initial value. -/
theorem le_hostReduce_minimumf_iff {s t u : Shape} {a : Fin s.rank} (x : s.Idx → EReal) (init : u.Idx → EReal)
    (h' : s.ReducesTo [a] t) (h : s.Reduces [a] t) (hu : 0 < u.numel) (j : t.Idx) (z : EReal) :
    z ≤ Host.reduce (FloatOps.minimumf (F := Ideal) (φ := φ)) x init h' hu j
      ↔ z ≤ init (Shape.Idx.first hu) ∧ ∀ k : Fin (s.size a), z ≤ x (h.lift j k) := by
  rw [Host.reduce_eq_fold_single (FloatOps.minimumf (F := Ideal) (φ := φ)) x init h' h hu j]
  show z ≤ (Finset.univ : Finset (Fin (s.size a))).fold min (init (Shape.Idx.first hu)) (x ∘ h.lift j) ↔ _
  rw [Finset.le_fold_min]
  exact and_congr Iff.rfl ⟨fun hk k => hk k (Finset.mem_univ k), fun hk k _ => hk k⟩

end Cert.LibMinReduce

end
-- ==== Proof.RefValue.lean ====
/-
  The value of the reference program, read against the specification.

  The reference forms the array of squared distances in the expanded form |a|² + |b|² − 2 ⟨a, b⟩: it squares and sums
  the coordinates of each point of x and of each point of y, spreads the two arrays of squared norms along the missing
  axis, adds them, and subtracts twice the array of inner products. Read at one entry (b, n, m) every one of those
  operations touches one element of its operands (or one row of three coordinates), so the entry is exactly the
  specification's expanded squared distance of point n of x and point m of y.

  The two minimum-reductions of that array, over its last axis and over its middle axis, are then the row minima and
  the column minima of the specification: a bound lies below the folded minimum exactly when it lies below the initial
  value, which is plus infinity, and below every entry along the axis.

  What the reference does with the two arrays of minima afterwards is, operation for operation, the specification's
  common tail.
-/
import proofs.«117909_j69870527971439_2_alg».proof.Proof.Spec
import proofs.«117909_j69870527971439_2_alg».proof.Proof.LibMinReduce
import proofs.«117909_j69870527971439_2_alg».proof.Proof.Gen.ReferenceIdeal.Read

noncomputable section

namespace Cert.Chamfer.Ref

open Cert.ReferenceIdeal Cert.ReferenceIdeal.Gen Cert.ReferenceIdeal.Read Idealize.ShloMosaic Idealize.ShloMosaic.ValueIdx

/-- What the reference computes from its two arrays of minima is the common tail. -/
theorem ref_tail (x y : (⟨S4x4096x3, .f32⟩ : BufTy).Contents (Elt Ideal)) :
    val_main_v26 (F := Ideal) x y
      = Cert.Chamfer.tail reducesTo_S4x4096_S4_d1 h_S_ bcast_S_S4 reducesTo_S4_S_d0
          (val_main_v13 (F := Ideal) x y) (val_main_v17 (F := Ideal) x y) := rfl

/-- The reference's array of squared distances at entry (b, n, m) is the expanded squared distance of point n of x and
    point m of y. Each operation is read at the entry; the indices the layout operations read at are then the rows
    (b, n, ·) of x and (b, m, ·) of y. -/
theorem ref_d2 (x y : (⟨S4x4096x3, .f32⟩ : BufTy).Contents (Elt Ideal)) (b : Fin 4) (n m : Fin 4096) :
    val_main_v12 (F := Ideal) x y (ix3 b n m) = Cert.Chamfer.dR x y b n m := by
  have h1 : ∀ k : Fin 3, idx_main_v1 (idx_main_v5 (idx_main_v7 (ix3 b n m))) k = ix3 b n k := fun k =>
    funext fun a => Fin.ext (by match a with | ⟨0, _⟩ => rfl | ⟨1, _⟩ => rfl | ⟨2, _⟩ => rfl)
  have h3 : ∀ k : Fin 3, idx_main_v3 (idx_main_v6 (idx_main_v8 (ix3 b n m))) k = ix3 b m k := fun k =>
    funext fun a => Fin.ext (by match a with | ⟨0, _⟩ => rfl | ⟨1, _⟩ => rfl | ⟨2, _⟩ => rfl)
  have hl : ∀ k : Fin 3, lidx_main_v4 (ix3 b n m) k = ix3 b n k := fun k =>
    funext fun a => Fin.ext (by match a with | ⟨0, _⟩ => rfl | ⟨1, _⟩ => rfl | ⟨2, _⟩ => rfl)
  have hr : ∀ k : Fin 3, ridx_main_v4 (ix3 b n m) k = ix3 b m k := fun k =>
    funext fun a => Fin.ext (by match a with | ⟨0, _⟩ => rfl | ⟨1, _⟩ => rfl | ⟨2, _⟩ => rfl)
  rw [val_main_v12_apply, val_main_v9_apply, val_main_v11_apply, val_main_v7_apply, val_main_v8_apply,
    val_main_v5_apply, val_main_v6_apply, val_main_v10_apply, val_main_v1_apply, val_main_v3_apply,
    val_main_v4_apply, val_main_cst_apply, val_main_cst_0_apply, val_main_cst_1_apply]
  simp only [val_main_v0_apply, val_main_v2_apply, h1, h3, hl, hr]
  rfl

/-- The reference's minimum over the last axis holds the row minima of the expanded squared distances. -/
theorem ref_rowmin (x y : (⟨S4x4096x3, .f32⟩ : BufTy).Contents (Elt Ideal)) :
    Cert.Chamfer.IsRowMin (Cert.Chamfer.dR x y) (val_main_v17 (F := Ideal) x y) := by
  intro b n z
  have hR : S4x4096x4096.Reduces [2] S4x4096 := by decide
  have hl : ∀ k : Fin 4096, hR.lift (ix2 b n) k = ix3 b n k := fun k =>
    funext fun a => Fin.ext (by match a with | ⟨0, _⟩ => rfl | ⟨1, _⟩ => rfl | ⟨2, _⟩ => rfl)
  unfold val_main_v17
  rw [Cert.LibMinReduce.le_hostReduce_minimumf_iff (φ := .f32) _ _ reducesTo_S4x4096x4096_S4x4096_d2 hR h_S_ (ix2 b n) z,
    val_main_cst_5_apply]
  constructor
  · intro h k
    have := h.2 k
    rwa [hl, ref_d2] at this
  · intro h
    refine ⟨?_, fun (k : Fin 4096) => ?_⟩
    · show z ≤ Ideal.ofBits .f32 0x7F800000#32
      rw [Cert.LibMinReduce.ofBits_inf_f32]; exact le_top
    · rw [hl, ref_d2]; exact h k

/-- The reference's minimum over the middle axis holds the column minima of the expanded squared distances. -/
theorem ref_colmin (x y : (⟨S4x4096x3, .f32⟩ : BufTy).Contents (Elt Ideal)) :
    Cert.Chamfer.IsColMin (Cert.Chamfer.dR x y) (val_main_v13 (F := Ideal) x y) := by
  intro b m z
  have hR : S4x4096x4096.Reduces [1] S4x4096 := by decide
  have hl : ∀ k : Fin 4096, hR.lift (ix2 b m) k = ix3 b k m := fun k =>
    funext fun a => Fin.ext (by match a with | ⟨0, _⟩ => rfl | ⟨1, _⟩ => rfl | ⟨2, _⟩ => rfl)
  unfold val_main_v13
  rw [Cert.LibMinReduce.le_hostReduce_minimumf_iff (φ := .f32) _ _ reducesTo_S4x4096x4096_S4x4096_d1 hR h_S_ (ix2 b m) z,
    val_main_cst_2_apply]
  constructor
  · intro h k
    have := h.2 k
    rwa [hl, ref_d2] at this
  · intro h
    refine ⟨?_, fun (k : Fin 4096) => ?_⟩
    · show z ≤ Ideal.ofBits .f32 0x7F800000#32
      rw [Cert.LibMinReduce.ofBits_inf_f32]; exact le_top
    · rw [hl, ref_d2]; exact h k

end Cert.Chamfer.Ref

end
-- ==== Proof.Payload.lean ====
/-
  The kernel body's arithmetic, read at one index, at the ideal instance.

  The body holds two blocks of points, x0 and x1 : [batch 4, coordinate 3, 512 points] (the coordinate axis in the
  middle), and forms the tile of squared distances [4, 512, 512], indexed (b, r, c) = (batch, point of x0, point of
  x1): entry (b, r, c) is zero plus the three squared coordinate differences of point r of x0 and point c of x1, added
  one after another. It then takes the minimum of each row of the tile into a running minimum, and the minimum of each
  column. Every layout step on the way (a slice of one coordinate plane, the reshapes that drop or add a unit axis, the
  two broadcasts of a column and of a row over the tile) reads, at an index, its operand at one index; the minima are
  read by their universal property.
-/
import proofs.«117909_j69870527971439_2_alg».proof.Proof.Spec
import proofs.«117909_j69870527971439_2_alg».proof.Proof.LibMinReduce
import proofs.«117909_j69870527971439_2_alg».proof.Proof.Gen.KernelIdeal.Skeleton
import Idealize.ShloMosaic.Lib.ValueIdx
import Idealize.ShloMosaic.Lib.ValueLayout
import Idealize.ShloMosaic.Lib.Pipeline.Value

noncomputable section

namespace Cert.Chamfer.Pay

open Cert.KernelIdeal Cert.KernelIdeal.Gen Idealize.ShloMosaic Idealize.ShloMosaic.ValueIdx

/-- The running minimum is stored as it is: a reshape to the same shape changes nothing. -/
theorem pay1_eq (v : FVec Ideal S4x512 .f32) : k0_pay1 (F := Ideal) v = v := by
  unfold k0_pay1
  exact shapeCast_self v _

/-- The running minimum starts at plus infinity everywhere. -/
theorem pay3_apply (j : S4x512.Idx) : k0_pay3 (F := Ideal) j = (⊤ : EReal) := by
  unfold k0_pay3
  rw [shapeCast_self]
  exact Cert.LibMinReduce.ofBits_inf_f32

/-- The source index over (b, r) with coordinate c on the last axis is (b, r, c). -/
theorem lift_axis2 (b : Fin 4) (r c : Fin 512) :
    (reduces_S4x512x512_S4x512).lift (ix2 b r) c = ix3 b r c :=
  funext fun a => Fin.ext (by match a with | ⟨0, _⟩ => rfl | ⟨1, _⟩ => rfl | ⟨2, _⟩ => rfl)

/-- A bound is below the minimum of row (b, r) of a tile exactly when it is below every entry of the row. -/
theorem le_rowmin_iff (v : FVec Ideal S4x512x512 .f32) (b : Fin 4) (r : Fin 512) (z : EReal) :
    z ≤ multiReduction .minimumf [2] S4x512 v 0x7F800000#32 reduces_S4x512x512_S4x512 (.inl rfl) rfl (ix2 b r)
      ↔ ∀ c : Fin 512, z ≤ v (ix3 b r c) := by
  refine (Cert.LibMinReduce.le_multiReduction_minimumf_iff v _ reduces_S4x512x512_S4x512 _ _ (ix2 b r) z).trans ?_
  rw [Cert.LibMinReduce.ofBits_inf_f32]
  exact ⟨fun h c => (congrArg (fun i => z ≤ v i) (lift_axis2 b r c)).mp (h.2 c),
    fun h => ⟨le_top, fun c => (congrArg (fun i => z ≤ v i) (lift_axis2 b r c)).mpr (h c)⟩⟩

/-- A bound is below the updated running minimum at (b, r) exactly when it is below the old one there and below
    every entry of row r of the tile. -/
theorem le_pay5_iff (x0 x1 : Vec Ideal S4x3x512 .f32) (acc : Vec Ideal S4x512 .f32) (b : Fin 4) (r : Fin 512) (z : EReal) :
    z ≤ k0_pay5 (F := Ideal) x0 x1 acc (ix2 b r)
      ↔ z ≤ acc (ix2 b r) ∧ ∀ c : Fin 512, z ≤ k0_pay4 (F := Ideal) x0 x1 (ix3 b r c) := by
  unfold k0_pay5
  rw [minimumf_apply, le_min_iff]
  exact and_congr Iff.rfl (le_rowmin_iff (k0_pay4 (F := Ideal) x0 x1) b r z)

/-- The source index over (b, c) with coordinate r on the middle axis is (b, r, c). -/
theorem lift_axis1 (b : Fin 4) (r c : Fin 512) :
    (reduces_S4x512x512_S4x512_2).lift (ix2 b c) r = ix3 b r c :=
  funext fun a => Fin.ext (by match a with | ⟨0, _⟩ => rfl | ⟨1, _⟩ => rfl | ⟨2, _⟩ => rfl)

/-- A bound is below the minimum of column (b, c) of a tile exactly when it is below every entry of the column. -/
theorem le_colmin_iff (v : FVec Ideal S4x512x512 .f32) (b : Fin 4) (c : Fin 512) (z : EReal) :
    z ≤ multiReduction .minimumf [1] S4x512 v 0x7F800000#32 reduces_S4x512x512_S4x512_2 (.inl rfl) rfl (ix2 b c)
      ↔ ∀ r : Fin 512, z ≤ v (ix3 b r c) := by
  refine (Cert.LibMinReduce.le_multiReduction_minimumf_iff v _ reduces_S4x512x512_S4x512_2 _ _ (ix2 b c) z).trans ?_
  rw [Cert.LibMinReduce.ofBits_inf_f32]
  exact ⟨fun h r => (congrArg (fun i => z ≤ v i) (lift_axis1 b r c)).mp (h.2 r),
    fun h => ⟨le_top, fun r => (congrArg (fun i => z ≤ v i) (lift_axis1 b r c)).mpr (h r)⟩⟩

/-- A bound is below the stored column minimum at (0, b, c) exactly when it is below every entry of column c of the
    tile: the stored block is the array of column minima under a leading unit axis. -/
theorem le_pay2_iff (v : FVec Ideal S4x512x512 .f32) (b : Fin 4) (c : Fin 512) (z : EReal) :
    z ≤ k0_pay2 (F := Ideal) v (ix3 (0 : Fin 1) b c) ↔ ∀ r : Fin 512, z ≤ v (ix3 b r c) := by
  unfold k0_pay2
  refine Iff.trans ?_ (le_colmin_iff v b c z)
  exact iff_of_eq (congrArg (fun t => z ≤ t) (shapeCast_ab_1ab_apply _ _ (0 : Fin 1) b c))

/-! ## The layout steps of one coordinate plane, read at an index -/

section Layout
variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b, 1]` array broadcast to `[a, b, c]` reads, at `(i, j, k)`, the operand's one entry of row `(i, j)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, k)`, the operand's one row of batch `i` at `k`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

end Layout

/-! ## The tile of squared distances at an index -/

/-- Coordinate plane `d` of a block of points, spread as a column over the tile: entry `(b, r, c)` is coordinate
    `d` of point `r`. The plane is cut out of the block, its unit axis dropped, a trailing unit axis added, and the
    column repeated along the last axis. -/
theorem colPlane_apply (x : Vec Ideal S4x3x512 .f32) (o : Nat) (d : Fin 3) (hd : d.val = o)
    (hs : S4x3x512.Slices ![0, o, 0] S4x1x512) (b : Fin 4) (r c : Fin 512) :
    broadcastTo S4x512x512
        (shapeCast S4x512x1
          (shapeCast S4x512
            (extractStridedSlice S4x1x512 ![0, o, 0] (shapeCast S4x3x512 x shapeCasts_S4x3x512_S4x3x512) hs)
            shapeCasts_S4x1x512_S4x512)
          shapeCasts_S4x512_S4x512x1)
        broadcasts_S4x512x1_S4x512x512 (ix3 b r c)
      = x (ix3 b d r) := by
  refine (broadcastTo_ab1_abc_apply _ _ b r c).trans ?_
  refine (shapeCast_ab_ab1_apply _ _ b r (0 : Fin 1)).trans ?_
  refine (shapeCast_a1b_ab_apply _ _ b r).trans ?_
  refine (slice3_axis1_apply o _ hs b (0 : Fin 1) r d hd).trans ?_
  rw [shapeCast_self]

/-- Coordinate plane `d` of a block of points, spread as a row over the tile: entry `(b, r, c)` is coordinate `d`
    of point `c`. The plane is cut out of the block, its unit axis dropped and put back, and the row repeated along
    the middle axis. -/
theorem rowPlane_apply (x : Vec Ideal S4x3x512 .f32) (o : Nat) (d : Fin 3) (hd : d.val = o)
    (hs : S4x3x512.Slices ![0, o, 0] S4x1x512) (b : Fin 4) (r c : Fin 512) :
    broadcastTo S4x512x512
        (shapeCast S4x1x512
          (shapeCast S4x512
            (extractStridedSlice S4x1x512 ![0, o, 0] (shapeCast S4x3x512 x shapeCasts_S4x3x512_S4x3x512) hs)
            shapeCasts_S4x1x512_S4x512)
          shapeCasts_S4x512_S4x1x512)
        broadcasts_S4x1x512_S4x512x512 (ix3 b r c)
      = x (ix3 b d c) := by
  refine (broadcastTo_a1c_abc_apply _ _ b r c).trans ?_
  refine (shapeCast_ab_a1b_apply _ _ b (0 : Fin 1) c).trans ?_
  refine (shapeCast_a1b_ab_apply _ _ b c).trans ?_
  refine (slice3_axis1_apply o _ hs b (0 : Fin 1) c d hd).trans ?_
  rw [shapeCast_self]

/-- A constant plus three squared differences of arrays, added one after another, read at an index. -/
theorem sqsum_apply {s : Shape} (z : EReal) (A0 B0 A1 B1 A2 B2 : FVec Ideal s .f32) (i : s.Idx) :
    addf (addf (addf (broadcast s z) (mulf (subf A0 B0) (subf A0 B0))) (mulf (subf A1 B1) (subf A1 B1)))
        (mulf (subf A2 B2) (subf A2 B2)) i
      = z + (A0 i - B0 i) * (A0 i - B0 i) + (A1 i - B1 i) * (A1 i - B1 i) + (A2 i - B2 i) * (A2 i - B2 i) := rfl

/-- Entry `(b, r, c)` of the tile is the squared distance, in the kernel's order of additions, between point `r` of
    the first block and point `c` of the second, in batch `b`. -/
theorem pay4_apply (x0 x1 : Vec Ideal S4x3x512 .f32) (b : Fin 4) (r c : Fin 512) :
    k0_pay4 (F := Ideal) x0 x1 (ix3 b r c)
      = Cert.Chamfer.sqK (fun d => x0 (ix3 b d r)) (fun d => x1 (ix3 b d c)) := by
  unfold k0_pay4 Cert.Chamfer.sqK
  refine (sqsum_apply _ _ _ _ _ _ _ (ix3 b r c)).trans ?_
  rw [colPlane_apply x0 0 0 rfl _ b r c, rowPlane_apply x1 0 0 rfl _ b r c,
    colPlane_apply x0 1 1 rfl _ b r c, rowPlane_apply x1 1 1 rfl _ b r c,
    colPlane_apply x0 2 2 rfl _ b r c, rowPlane_apply x1 2 2 rfl _ b r c]
  rfl

end Cert.Chamfer.Pay

end
-- ==== Proof.KernelPieces.lean ====
/-
  What one run of the kernel body leaves behind, case by case, as values.

  The body at a grid point (i, j) reads a tile of 512 points of x and a tile of 512 points of y, forms the 512 × 512
  tile of squared distances, and
    • lowers the running row minima kept in the scratch accumulator by this tile's row minima — after first resetting
      the accumulator to +∞ when j = 0;
    • when j = 7, copies the accumulator into the row-minimum output block;
    • writes this tile's column minima into the column-minimum output block.
  The three cases are j = 0 (A), 0 < j < 7 (B) and j = 7 (C). In each, every buffer the body writes ends at a pure
  function of the two input tiles (and, in B and C, of the accumulator it found): the lemmas below say which.
-/
import proofs.«117909_j69870527971439_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.Chamfer.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Case B (0 < j < 7): the accumulator ends at its old contents lowered by the tile's row minima. -/
theorem acc_B (c : Dev nD) (i : grid0.Coords) (arg2 : Memref sig .tc .vmem S4x3x512 .f32) (harg2 : arg2.IsWhole) (arg3 : Memref sig .tc .vmem S4x3x512 .f32) (harg3 : arg3.IsWhole) (arg4 : Memref sig .tc .vmem S4x512 .f32) (harg4 : arg4.IsWhole) (arg5 : Memref sig .tc .vmem S1x4x512 .f32) (harg5 : arg5.IsWhole) (arg6 : Memref sig .tc .vmem S4x512 .f32) (harg6 : arg6.IsWhole) (hc0 : ¬cond0_0 i) (hc1 : ¬cond0_1 i) (x0 x1 : Vec F S4x3x512 .f32) (xs0 : Vec F S4x512 .f32) :
    sout0_B_0 c i arg2 harg2 arg3 harg3 arg4 harg4 arg5 harg5 arg6 harg6 hc0 hc1 x0 x1 xs0 = k0_pay1 (k0_pay5 x0 x1 xs0) := by
  unfold sout0_B_0
  rw [View.read_writes_eq_canon _ _ _ (scover0_B_0 c i arg2 harg2 arg3 harg3 arg4 harg4 arg5 harg5 arg6 harg6 hc0 hc1 x0 x1 xs0)]
  unfold kernelRun0_B
  dsimp only
  sl_unfold_words
  rw [View.canon_unit_zero hz2]
  simp only [View.readAt_eq_ld, harg2.read_unread, harg3.read_unread, harg4.read_unread, harg5.read_unread, harg6.read_unread, View.ld_unit_zero (S := S4x512) hz2, View.ld_unit_zero (S := S4x3x512) hz3, View.ld_unit_zero (S := S1x4x512) hz3]

/-- Case B: the column-minimum block ends at the tile's column minima. -/
theorem col_B (c : Dev nD) (i : grid0.Coords) (arg2 : Memref sig .tc .vmem S4x3x512 .f32) (harg2 : arg2.IsWhole) (arg3 : Memref sig .tc .vmem S4x3x512 .f32) (harg3 : arg3.IsWhole) (arg4 : Memref sig .tc .vmem S4x512 .f32) (harg4 : arg4.IsWhole) (arg5 : Memref sig .tc .vmem S1x4x512 .f32) (harg5 : arg5.IsWhole) (arg6 : Memref sig .tc .vmem S4x512 .f32) (harg6 : arg6.IsWhole) (hc0 : ¬cond0_0 i) (hc1 : ¬cond0_1 i) (x0 x1 : Vec F S4x3x512 .f32) (xs0 : Vec F S4x512 .f32) :
    out0_B_3 c i arg2 harg2 arg3 harg3 arg4 harg4 arg5 harg5 arg6 harg6 hc0 hc1 x0 x1 xs0 = k0_pay2 (k0_pay4 x0 x1) := by
  unfold out0_B_3
  rw [View.read_writes_eq_canon _ _ _ (cover0_B_3 c i arg2 harg2 arg3 harg3 arg4 harg4 arg5 harg5 arg6 harg6 hc0 hc1 x0 x1 xs0)]
  unfold kernelRun0_B
  dsimp only
  sl_unfold_words
  rw [View.canon_unit_zero hz3]
  simp only [View.readAt_eq_ld, harg2.read_unread, harg3.read_unread, harg4.read_unread, harg5.read_unread, harg6.read_unread, View.ld_unit_zero (S := S4x512) hz2, View.ld_unit_zero (S := S4x3x512) hz3, View.ld_unit_zero (S := S1x4x512) hz3]

/-- Case C (j = 7): the accumulator, as in case B. -/
theorem acc_C (c : Dev nD) (i : grid0.Coords) (arg2 : Memref sig .tc .vmem S4x3x512 .f32) (harg2 : arg2.IsWhole) (arg3 : Memref sig .tc .vmem S4x3x512 .f32) (harg3 : arg3.IsWhole) (arg4 : Memref sig .tc .vmem S4x512 .f32) (harg4 : arg4.IsWhole) (arg5 : Memref sig .tc .vmem S1x4x512 .f32) (harg5 : arg5.IsWhole) (arg6 : Memref sig .tc .vmem S4x512 .f32) (harg6 : arg6.IsWhole) (hc0 : ¬cond0_0 i) (hc1 : cond0_1 i) (x0 x1 : Vec F S4x3x512 .f32) (xs0 : Vec F S4x512 .f32) :
    sout0_C_0 c i arg2 harg2 arg3 harg3 arg4 harg4 arg5 harg5 arg6 harg6 hc0 hc1 x0 x1 xs0 = k0_pay1 (k0_pay5 x0 x1 xs0) := by
  unfold sout0_C_0
  rw [View.read_writes_eq_canon _ _ _ (scover0_C_0 c i arg2 harg2 arg3 harg3 arg4 harg4 arg5 harg5 arg6 harg6 hc0 hc1 x0 x1 xs0)]
  unfold kernelRun0_C
  dsimp only
  sl_unfold_words
  rw [View.canon_unit_zero hz2]
  simp only [View.readAt_eq_ld, harg2.read_unread, harg3.read_unread, harg4.read_unread, harg5.read_unread, harg6.read_unread, View.ld_unit_zero (S := S4x512) hz2, View.ld_unit_zero (S := S4x3x512) hz3, View.ld_unit_zero (S := S1x4x512) hz3]

/-- Case C: the row-minimum block receives the accumulator's final contents. -/
theorem row_C (c : Dev nD) (i : grid0.Coords) (arg2 : Memref sig .tc .vmem S4x3x512 .f32) (harg2 : arg2.IsWhole) (arg3 : Memref sig .tc .vmem S4x3x512 .f32) (harg3 : arg3.IsWhole) (arg4 : Memref sig .tc .vmem S4x512 .f32) (harg4 : arg4.IsWhole) (arg5 : Memref sig .tc .vmem S1x4x512 .f32) (harg5 : arg5.IsWhole) (arg6 : Memref sig .tc .vmem S4x512 .f32) (harg6 : arg6.IsWhole) (hc0 : ¬cond0_0 i) (hc1 : cond0_1 i) (x0 x1 : Vec F S4x3x512 .f32) (xs0 : Vec F S4x512 .f32) :
    out0_C_2 c i arg2 harg2 arg3 harg3 arg4 harg4 arg5 harg5 arg6 harg6 hc0 hc1 x0 x1 xs0 = k0_pay1 (k0_pay5 x0 x1 xs0) := by
  unfold out0_C_2
  rw [View.read_writes_eq_canon _ _ _ (cover0_C_2 c i arg2 harg2 arg3 harg3 arg4 harg4 arg5 harg5 arg6 harg6 hc0 hc1 x0 x1 xs0)]
  unfold kernelRun0_C
  dsimp only
  sl_unfold_words
  rw [View.canon_unit_zero hz2, View.readCov_unit_zero (S := S4x512) _ hz2]
  simp only [View.readAt_eq_ld, harg2.read_unread, harg3.read_unread, harg4.read_unread, harg5.read_unread, harg6.read_unread, View.ld_unit_zero (S := S4x512) hz2, View.ld_unit_zero (S := S4x3x512) hz3, View.ld_unit_zero (S := S1x4x512) hz3]

/-- Case C: the column-minimum block, as in case B. -/
theorem col_C (c : Dev nD) (i : grid0.Coords) (arg2 : Memref sig .tc .vmem S4x3x512 .f32) (harg2 : arg2.IsWhole) (arg3 : Memref sig .tc .vmem S4x3x512 .f32) (harg3 : arg3.IsWhole) (arg4 : Memref sig .tc .vmem S4x512 .f32) (harg4 : arg4.IsWhole) (arg5 : Memref sig .tc .vmem S1x4x512 .f32) (harg5 : arg5.IsWhole) (arg6 : Memref sig .tc .vmem S4x512 .f32) (harg6 : arg6.IsWhole) (hc0 : ¬cond0_0 i) (hc1 : cond0_1 i) (x0 x1 : Vec F S4x3x512 .f32) (xs0 : Vec F S4x512 .f32) :
    out0_C_3 c i arg2 harg2 arg3 harg3 arg4 harg4 arg5 harg5 arg6 harg6 hc0 hc1 x0 x1 xs0 = k0_pay2 (k0_pay4 x0 x1) := by
  unfold out0_C_3
  rw [View.read_writes_eq_canon _ _ _ (cover0_C_3 c i arg2 harg2 arg3 harg3 arg4 harg4 arg5 harg5 arg6 harg6 hc0 hc1 x0 x1 xs0)]
  unfold kernelRun0_C
  dsimp only
  sl_unfold_words
  rw [View.canon_unit_zero hz3]
  simp only [View.readAt_eq_ld, harg2.read_unread, harg3.read_unread, harg4.read_unread, harg5.read_unread, harg6.read_unread, View.ld_unit_zero (S := S4x512) hz2, View.ld_unit_zero (S := S4x3x512) hz3, View.ld_unit_zero (S := S1x4x512) hz3]

/-- Case A (j = 0): the accumulator is reset to +∞ and then lowered by the tile's row minima. -/
theorem acc_A (c : Dev nD) (i : grid0.Coords) (arg2 : Memref sig .tc .vmem S4x3x512 .f32) (harg2 : arg2.IsWhole) (arg3 : Memref sig .tc .vmem S4x3x512 .f32) (harg3 : arg3.IsWhole) (arg4 : Memref sig .tc .vmem S4x512 .f32) (harg4 : arg4.IsWhole) (arg5 : Memref sig .tc .vmem S1x4x512 .f32) (harg5 : arg5.IsWhole) (arg6 : Memref sig .tc .vmem S4x512 .f32) (harg6 : arg6.IsWhole) (hc0 : cond0_0 i) (hc1 : ¬cond0_1 i) (x0 x1 : Vec F S4x3x512 .f32) :
    sout0_A_0 c i arg2 harg2 arg3 harg3 arg4 harg4 arg5 harg5 arg6 harg6 hc0 hc1 x0 x1 = k0_pay1 (k0_pay5 x0 x1 (k0_pay3 (F := F))) := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S4x512) hz2, View.readCov_unit_zero (S := S4x512) _ hz2]
  simp only [View.readAt_eq_ld, harg2.read_unread, harg3.read_unread, harg4.read_unread, harg5.read_unread, harg6.read_unread, View.ld_unit_zero (S := S4x512) hz2, View.ld_unit_zero (S := S4x3x512) hz3, View.ld_unit_zero (S := S1x4x512) hz3]

/-- Case A: the column-minimum block, as in case B. -/
theorem col_A (c : Dev nD) (i : grid0.Coords) (arg2 : Memref sig .tc .vmem S4x3x512 .f32) (harg2 : arg2.IsWhole) (arg3 : Memref sig .tc .vmem S4x3x512 .f32) (harg3 : arg3.IsWhole) (arg4 : Memref sig .tc .vmem S4x512 .f32) (harg4 : arg4.IsWhole) (arg5 : Memref sig .tc .vmem S1x4x512 .f32) (harg5 : arg5.IsWhole) (arg6 : Memref sig .tc .vmem S4x512 .f32) (harg6 : arg6.IsWhole) (hc0 : cond0_0 i) (hc1 : ¬cond0_1 i) (x0 x1 : Vec F S4x3x512 .f32) :
    out0_A_3 c i arg2 harg2 arg3 harg3 arg4 harg4 arg5 harg5 arg6 harg6 hc0 hc1 x0 x1 = k0_pay2 (k0_pay4 x0 x1) := by
  unfold out0_A_3
  rw [View.read_writes_eq_canon _ _ _ (cover0_A_3 c i arg2 harg2 arg3 harg3 arg4 harg4 arg5 harg5 arg6 harg6 hc0 hc1 x0 x1)]
  unfold kernelRun0_A
  dsimp only
  sl_unfold_words
  rw [View.canon_unit_zero hz3]
  simp only [View.readAt_eq_ld, harg2.read_unread, harg3.read_unread, harg4.read_unread, harg5.read_unread, harg6.read_unread, View.ld_unit_zero (S := S4x512) hz2, View.ld_unit_zero (S := S4x3x512) hz3, View.ld_unit_zero (S := S1x4x512) hz3]

end Cert.Chamfer.Pieces

end
-- ==== Proof.KernelBlocks.lean ====
/-
  Which entries of the argument arrays a tile holds.

  The grid is 8 × 8; point t is (i, j) = (t / 8, t mod 8). Before the kernel the host transposes each [4, 4096, 3]
  array of points to [4, 3, 4096], so that the point index is the last axis. At point t the first input tile is
  points 512·i … 512·i + 511 of x and the second points 512·j … 512·j + 511 of y, every batch and coordinate. So entry
  (b, d, r) of the first tile is coordinate d of point 512·i + r of x in batch b, and likewise for the second tile
  with j and y.
-/
import proofs.«117909_j69870527971439_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.Chamfer.Blocks

open Cert.KernelIdeal Cert.KernelIdeal.Gen

variable {F : FTy → Type} [FloatOps F]
variable (m : (ℓ : Loc nD τ sig) → Buf (Elt F) ℓ)

theorem N64 : cfg0.N = 64 := N_0

/-- The block index of each window at point t: the first input follows i = t / 8, the second j = t mod 8, the
    row-minimum output i, the column-minimum output (i, j). -/
theorem idx0 : ∀ t : Fin cfg0.N, win0_0.index t (0 : Fin 3) = 0 ∧ win0_0.index t (1 : Fin 3) = 0 ∧ win0_0.index t (2 : Fin 3) = t.val / 8 :=
  (by decide +kernel : ∀ t : Fin grid0.N, win0_0.index t (0 : Fin 3) = 0 ∧ win0_0.index t (1 : Fin 3) = 0 ∧ win0_0.index t (2 : Fin 3) = t.val / 8)
theorem idx1 : ∀ t : Fin cfg0.N, win0_1.index t (0 : Fin 3) = 0 ∧ win0_1.index t (1 : Fin 3) = 0 ∧ win0_1.index t (2 : Fin 3) = t.val % 8 :=
  (by decide +kernel : ∀ t : Fin grid0.N, win0_1.index t (0 : Fin 3) = 0 ∧ win0_1.index t (1 : Fin 3) = 0 ∧ win0_1.index t (2 : Fin 3) = t.val % 8)
theorem idx2 : ∀ t : Fin cfg0.N, win0_2.index t (0 : Fin 2) = 0 ∧ win0_2.index t (1 : Fin 2) = t.val / 8 :=
  (by decide +kernel : ∀ t : Fin grid0.N, win0_2.index t (0 : Fin 2) = 0 ∧ win0_2.index t (1 : Fin 2) = t.val / 8)
theorem idx3 : ∀ t : Fin cfg0.N, win0_3.index t (0 : Fin 3) = t.val / 8 ∧ win0_3.index t (1 : Fin 3) = 0 ∧ win0_3.index t (2 : Fin 3) = t.val % 8 :=
  (by decide +kernel : ∀ t : Fin grid0.N, win0_3.index t (0 : Fin 3) = t.val / 8 ∧ win0_3.index t (1 : Fin 3) = 0 ∧ win0_3.index t (2 : Fin 3) = t.val % 8)

/-- Point r of the first tile at grid point t, as a point of x; point c of the second tile, as a point of y. -/
def rowOf (t : Fin cfg0.N) (r : Fin 512) : Fin 4096 :=
  ⟨512 * (t.val / 8) + r.val, by have := t.isLt; have := N64; have := r.isLt; omega⟩
def colOf (t : Fin cfg0.N) (c : Fin 512) : Fin 4096 :=
  ⟨512 * (t.val % 8) + c.val, by have := c.isLt; omega⟩

/-- The first tile, entry by entry, in the staged (transposed) array. -/
theorem iblk0_apply (c : Dev nD) (t : Fin cfg0.N) (b : Fin 4) (d : Fin 3) (r : Fin 512) :
    (iblk m c 0 t : Vec F S4x3x512 .f32) (ix3 b d r) = (V m c main_v0 : S4x3x4096.Idx → Elt F .f32) (ix3 b d (rowOf t r)) := by
  unfold iblk
  rw [View.read_apply]
  show V m c main_v0 _ = V m c main_v0 _
  congr 1
  funext a
  apply Fin.ext
  match a with
  | ⟨0, _⟩ => show win0_0.index t 0 * 4 + 1 * b.val = b.val; rw [(idx0 t).1]; omega
  | ⟨1, _⟩ => show win0_0.index t 1 * 3 + 1 * d.val = d.val; rw [(idx0 t).2.1]; omega
  | ⟨2, _⟩ => show win0_0.index t 2 * 512 + 1 * r.val = 512 * (t.val / 8) + r.val; rw [(idx0 t).2.2]; omega

/-- The second tile likewise. -/
theorem iblk1_apply (c : Dev nD) (t : Fin cfg0.N) (b : Fin 4) (d : Fin 3) (k : Fin 512) :
    (iblk m c 1 t : Vec F S4x3x512 .f32) (ix3 b d k) = (V m c main_v1 : S4x3x4096.Idx → Elt F .f32) (ix3 b d (colOf t k)) := by
  unfold iblk
  rw [View.read_apply]
  show V m c main_v1 _ = V m c main_v1 _
  congr 1
  funext a
  apply Fin.ext
  match a with
  | ⟨0, _⟩ => show win0_1.index t 0 * 4 + 1 * b.val = b.val; rw [(idx1 t).1]; omega
  | ⟨1, _⟩ => show win0_1.index t 1 * 3 + 1 * d.val = d.val; rw [(idx1 t).2.1]; omega
  | ⟨2, _⟩ => show win0_1.index t 2 * 512 + 1 * k.val = 512 * (t.val % 8) + k.val; rw [(idx1 t).2.2]; omega

/-- The staged arrays are the host's transposes of the argument arrays. -/
theorem V_v0 (c : Dev nD) : (V m c main_v0 : S4x3x4096.Idx → Elt F .f32)
    = transpose S4x3x4096 [0, 2, 1] (m ((c : Thread nD τ).loc main_arg0)) transposes_S4x4096x3_S4x3x4096_0_2_1 := by
  show StableHlo.after hostOps0 (fun b => m (c, b)) (Proc.devRef .tc main_v0) = _
  after_results
theorem V_v1 (c : Dev nD) : (V m c main_v1 : S4x3x4096.Idx → Elt F .f32)
    = transpose S4x3x4096 [0, 2, 1] (m ((c : Thread nD τ).loc main_arg1)) transposes_S4x4096x3_S4x3x4096_0_2_1 := by
  show StableHlo.after hostOps0 (fun b => m (c, b)) (Proc.devRef .tc main_v1) = _
  after_results

/-- So entry (b, d, r) of the first tile is coordinate d of point `rowOf t r` of x, and of the second tile coordinate
    d of point `colOf t k` of y. -/
theorem tile0_apply (c : Dev nD) (t : Fin cfg0.N) (b : Fin 4) (d : Fin 3) (r : Fin 512) :
    (iblk m c 0 t : Vec F S4x3x512 .f32) (ix3 b d r) = m ((c : Thread nD τ).loc main_arg0) (ix3 b (rowOf t r) d) := by
  rw [iblk0_apply, V_v0]
  exact transpose_ix3_021_apply _ _ b d (rowOf t r)
theorem tile1_apply (c : Dev nD) (t : Fin cfg0.N) (b : Fin 4) (d : Fin 3) (k : Fin 512) :
    (iblk m c 1 t : Vec F S4x3x512 .f32) (ix3 b d k) = m ((c : Thread nD τ).loc main_arg1) (ix3 b (colOf t k) d) := by
  rw [iblk1_apply, V_v1]
  exact transpose_ix3_021_apply _ _ b d (colOf t k)

end Cert.Chamfer.Blocks

end
-- ==== Proof.KernelInvariant.lean ====
/-
  What the kernel's buffers hold after each grid point, at the ideal values.

  Write tile(t) for the 512 × 512 tile of squared distances the body forms at grid point t (per batch). After point t
    • the column-minimum block holds the column minima of tile(t);
    • the accumulator entry (b, r) holds the minimum of row (b, r) over the tiles of the points t′ ≤ t in the same grid
      row (t′ / 8 = t / 8): it is reset at the row's first point and lowered by each tile after it;
    • at a row's last point (t mod 8 = 7) the row-minimum block receives the accumulator.
  Minima are stated by their universal property. The induction is over the point, through the three cases.
-/
import proofs.«117909_j69870527971439_2_alg».proof.Proof.Spec
import proofs.«117909_j69870527971439_2_alg».proof.Proof.LibMinReduce
import proofs.«117909_j69870527971439_2_alg».proof.Proof.Payload
import proofs.«117909_j69870527971439_2_alg».proof.Proof.KernelPieces
import proofs.«117909_j69870527971439_2_alg».proof.Proof.KernelBlocks

noncomputable section

open Idealize.ShloMosaic Idealize.ShloMosaic.TcCoe Idealize.SL.Sem Idealize.ShloMosaic.ValueIdx

namespace Cert.Chamfer.Inv

open Cert.KernelIdeal Cert.KernelIdeal.Gen Cert.Chamfer.Blocks

variable (m : (ℓ : Loc nD τ sig) → Buf (Elt Ideal) ℓ) (c : Dev nD)

/-- Entry (b, r, k) of the tile of squared distances formed at grid point t. -/
def tileAt (t : Fin cfg0.N) (b : Fin 4) (r k : Fin 512) : EReal :=
  k0_pay4 (F := Ideal) (iblk m c 0 t) (iblk m c 1 t) (ix3 b r k)

/-! ## Each case's contents at a point, over the point's tiles -/

theorem acc_at_A (t : Fin cfg0.N) (h0 : t.val % 8 = 0) (h1 : ¬t.val % 8 = 7) :
    (outsAt0 m c t.val t.isLt).2.2 = k0_pay1 (F := Ideal) (k0_pay5 (F := Ideal) (iblk m c 0 t) (iblk m c 1 t) (k0_pay3 (F := Ideal))) := by
  rw [outsAt0_A m c t h0 h1]
  dsimp only
  exact Pieces.acc_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t)

theorem col_at_A (t : Fin cfg0.N) (h0 : t.val % 8 = 0) (h1 : ¬t.val % 8 = 7) :
    (outsAt0 m c t.val t.isLt).2.1 = k0_pay2 (F := Ideal) (k0_pay4 (F := Ideal) (iblk m c 0 t) (iblk m c 1 t)) := by
  rw [outsAt0_A m c t h0 h1]
  dsimp only
  exact Pieces.col_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t)

theorem acc_at_B (t : Fin cfg0.N) (h0 : ¬t.val % 8 = 0) (h1 : ¬t.val % 8 = 7) :
    (outsAt0 m c t.val t.isLt).2.2 = k0_pay1 (F := Ideal) (k0_pay5 (F := Ideal) (iblk m c 0 t) (iblk m c 1 t) (outsAt0 m c (t.val - 1) (Nat.lt_of_le_of_lt (Nat.sub_le _ _) t.isLt)).2.2) := by
  rw [outsAt0_B m c t h0 h1]
  dsimp only
  exact Pieces.acc_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2

theorem col_at_B (t : Fin cfg0.N) (h0 : ¬t.val % 8 = 0) (h1 : ¬t.val % 8 = 7) :
    (outsAt0 m c t.val t.isLt).2.1 = k0_pay2 (F := Ideal) (k0_pay4 (F := Ideal) (iblk m c 0 t) (iblk m c 1 t)) := by
  rw [outsAt0_B m c t h0 h1]
  dsimp only
  exact Pieces.col_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2

theorem acc_at_C (t : Fin cfg0.N) (h0 : ¬t.val % 8 = 0) (h1 : t.val % 8 = 7) :
    (outsAt0 m c t.val t.isLt).2.2 = k0_pay1 (F := Ideal) (k0_pay5 (F := Ideal) (iblk m c 0 t) (iblk m c 1 t) (outsAt0 m c (t.val - 1) (Nat.lt_of_le_of_lt (Nat.sub_le _ _) t.isLt)).2.2) := by
  rw [outsAt0_C m c t h0 h1]
  dsimp only
  exact Pieces.acc_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2

theorem row_at_C (t : Fin cfg0.N) (h0 : ¬t.val % 8 = 0) (h1 : t.val % 8 = 7) :
    (outsAt0 m c t.val t.isLt).1 = k0_pay1 (F := Ideal) (k0_pay5 (F := Ideal) (iblk m c 0 t) (iblk m c 1 t) (outsAt0 m c (t.val - 1) (Nat.lt_of_le_of_lt (Nat.sub_le _ _) t.isLt)).2.2) := by
  rw [outsAt0_C m c t h0 h1]
  dsimp only
  exact Pieces.row_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2

theorem col_at_C (t : Fin cfg0.N) (h0 : ¬t.val % 8 = 0) (h1 : t.val % 8 = 7) :
    (outsAt0 m c t.val t.isLt).2.1 = k0_pay2 (F := Ideal) (k0_pay4 (F := Ideal) (iblk m c 0 t) (iblk m c 1 t)) := by
  rw [outsAt0_C m c t h0 h1]
  dsimp only
  exact Pieces.col_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2

/-! ## The tile is the specification's squared distances -/

/-- Entry (b, r, k) of the tile at point t is the squared distance, in the kernel's form, between point `rowOf t r`
    of x and point `colOf t k` of y. -/
theorem tileAt_eq (t : Fin cfg0.N) (b : Fin 4) (r k : Fin 512) :
    tileAt m c t b r k
      = dK (m ((c : Thread nD τ).loc main_arg0)) (m ((c : Thread nD τ).loc main_arg1)) b (rowOf t r) (colOf t k) := by
  unfold tileAt
  rw [Pay.pay4_apply (iblk m c 0 t) (iblk m c 1 t) b r k]
  unfold dK pt
  congr 1 <;> funext d
  · exact tile0_apply m c t b d r
  · exact tile1_apply m c t b d k

/-! ## The column-minimum block, at every point -/

theorem col_at (t : Fin cfg0.N) :
    (outsAt0 m c t.val t.isLt).2.1 = k0_pay2 (F := Ideal) (k0_pay4 (F := Ideal) (iblk m c 0 t) (iblk m c 1 t)) := by
  by_cases h0 : t.val % 8 = 0
  · exact col_at_A m c t h0 (by omega)
  · by_cases h1 : t.val % 8 = 7
    · exact col_at_C m c t h0 h1
    · exact col_at_B m c t h0 h1

/-- After point t the column-minimum block holds, at (b, k), the minimum of column (b, ·, k) of the point's tile. -/
theorem le_col_iff (t : Fin cfg0.N) (b : Fin 4) (k : Fin 512) (z : EReal) :
    z ≤ (outsAt0 m c t.val t.isLt).2.1 (ix3 (0 : Fin 1) b k) ↔ ∀ r : Fin 512, z ≤ tileAt m c t b r k := by
  rw [col_at m c t]
  exact Pay.le_pay2_iff (k0_pay4 (F := Ideal) (iblk m c 0 t) (iblk m c 1 t)) b k z

/-! ## The accumulator, by induction on the point -/

/-- After point n the accumulator holds, at (b, r), the minimum of row (b, r, ·) over the tiles of the points n′ ≤ n
    of the same grid row. -/
theorem le_acc_iff : ∀ (n : ℕ) (hn : n < cfg0.N) (b : Fin 4) (r : Fin 512) (z : EReal),
    z ≤ (outsAt0 m c n hn).2.2 (ix2 b r)
      ↔ ∀ (n' : ℕ) (hn' : n' < cfg0.N), n' / 8 = n / 8 → n' ≤ n → ∀ k : Fin 512, z ≤ tileAt m c ⟨n', hn'⟩ b r k
  | 0, hn, b, r, z => by
    rw [show (outsAt0 m c 0 hn).2.2 = _ from acc_at_A m c ⟨0, hn⟩ rfl (by show ¬(0 % 8 = 7); omega)]
    rw [Pay.pay1_eq, Pay.le_pay5_iff (iblk m c 0 ⟨0, hn⟩) (iblk m c 1 ⟨0, hn⟩) _ b r z, Pay.pay3_apply]
    constructor
    · rintro ⟨_, h⟩ n' hn' _ hle k
      obtain rfl : n' = 0 := by omega
      exact h k
    · intro h
      exact ⟨le_top, fun k => h 0 hn rfl le_rfl k⟩
  | n + 1, hn, b, r, z => by
    have hN := N64
    have ih := le_acc_iff n (Nat.lt_of_succ_lt hn) b r z
    by_cases h0 : (n + 1) % 8 = 0
    · have h1 : ¬(n + 1) % 8 = 7 := by omega
      rw [show (outsAt0 m c (n + 1) hn).2.2 = _ from acc_at_A m c ⟨n + 1, hn⟩ h0 h1]
      rw [Pay.pay1_eq, Pay.le_pay5_iff (iblk m c 0 ⟨n + 1, hn⟩) (iblk m c 1 ⟨n + 1, hn⟩) _ b r z, Pay.pay3_apply]
      constructor
      · rintro ⟨_, h⟩ n' hn' hd hle k
        obtain rfl : n' = n + 1 := by omega
        exact h k
      · intro h
        exact ⟨le_top, fun k => h (n + 1) hn rfl le_rfl k⟩
    · have e : (outsAt0 m c (n + 1) hn).2.2
          = k0_pay1 (F := Ideal) (k0_pay5 (F := Ideal) (iblk m c 0 ⟨n + 1, hn⟩) (iblk m c 1 ⟨n + 1, hn⟩) (outsAt0 m c n (Nat.lt_of_succ_lt hn)).2.2) := by
        by_cases h1 : (n + 1) % 8 = 7
        · exact acc_at_C m c ⟨n + 1, hn⟩ h0 h1
        · exact acc_at_B m c ⟨n + 1, hn⟩ h0 h1
      rw [e, Pay.pay1_eq, Pay.le_pay5_iff (iblk m c 0 ⟨n + 1, hn⟩) (iblk m c 1 ⟨n + 1, hn⟩) _ b r z, ih]
      constructor
      · rintro ⟨hp, h⟩ n' hn' hd hle k
        by_cases hq : n' = n + 1
        · subst hq; exact h k
        · exact hp n' hn' (by omega) (by omega) k
      · intro h
        exact ⟨fun n' hn' hd hle k => h n' hn' (by omega) (by omega) k, fun k => h (n + 1) hn rfl le_rfl k⟩

/-! ## The row-minimum block, at a grid row's last point -/

/-- At the last point of a grid row the row-minimum block is the accumulator. -/
theorem row_eq_acc (t : Fin cfg0.N) (h1 : t.val % 8 = 7) :
    (outsAt0 m c t.val t.isLt).1 = (outsAt0 m c t.val t.isLt).2.2 := by
  have h0 : ¬t.val % 8 = 0 := by omega
  rw [row_at_C m c t h0 h1, acc_at_C m c t h0 h1]

/-- So it holds, at (b, r), the minimum of row (b, r, ·) over all eight tiles of the grid row. -/
theorem le_row_iff (t : Fin cfg0.N) (h1 : t.val % 8 = 7) (b : Fin 4) (r : Fin 512) (z : EReal) :
    z ≤ (outsAt0 m c t.val t.isLt).1 (ix2 b r)
      ↔ ∀ (n' : ℕ) (hn' : n' < cfg0.N), n' / 8 = t.val / 8 → ∀ k : Fin 512, z ≤ tileAt m c ⟨n', hn'⟩ b r k := by
  rw [row_eq_acc m c t h1, le_acc_iff m c t.val t.isLt b r z]
  have hN := N64
  have ht := t.isLt
  constructor
  · intro h n' hn' hd k
    exact h n' hn' hd (by omega) k
  · intro h n' hn' hd _ k
    exact h n' hn' hd k

end Cert.Chamfer.Inv

end
-- ==== Proof.KernelCover.lean ====
/-
  Where the kernel's two output blocks lie in their arrays, and that the blocks written back fill the arrays.

  The grid is 8 × 8; point t is (i, j) = (t / 8, t mod 8). The array of row minima is [4, 4096]; its block at point
  t is [4, 512], columns 512·i … 512·i + 511, and is written back once the row of tiles is finished, at j = 7. The
  array of column minima, one layer per row of tiles, is [8, 4, 4096]; its block at point t is [1, 4, 512]: layer i,
  columns 512·j … 512·j + 511, written back at every point. Every entry of either array lies in exactly the block of
  one point that writes back: column n of the first in the block of point 8·(n / 512) + 7, entry (i, b, n) of the
  second in the block of point 8·i + n / 512. What a write-back writes is all of what the body left in the block.
-/
import proofs.«117909_j69870527971439_2_alg».proof.Proof.KernelBlocks
import Idealize.ShloMosaic.Lib.Pipeline.Value

noncomputable section

namespace Cert.Chamfer.Cover

open Cert.KernelIdeal Cert.KernelIdeal.Gen Cert.Chamfer.Blocks
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (c : Dev nD)

/-- Entry (b, r) of the row-minimum block at point t is entry (b, 512·(t / 8) + r) of the array. -/
theorem blk2_read (G : Buf (Elt Ideal) ((cfg0.win 2).arr.view.loc (c.tc : Thread nD τ))) (t : Fin cfg0.N)
    (b : Fin 4) (r : Fin 512) :
    ((cfg0.win 2).blk t).view.read (Elt Ideal) G (ix2 b r) = G (ix2 b (rowOf t r)) := by
  rw [View.read_apply]
  show G _ = G _
  congr 1
  funext a
  apply Fin.ext
  match a with
  | ⟨0, _⟩ => show win0_2.index t 0 * 4 + 1 * b.val = b.val; rw [(idx2 t).1]; omega
  | ⟨1, _⟩ => show win0_2.index t 1 * 512 + 1 * r.val = 512 * (t.val / 8) + r.val; rw [(idx2 t).2]; omega

/-- Entry (0, b, k) of the column-minimum block at point t is entry (t / 8, b, 512·(t mod 8) + k) of the array. -/
theorem blk3_read (G : Buf (Elt Ideal) ((cfg0.win 3).arr.view.loc (c.tc : Thread nD τ))) (t : Fin cfg0.N)
    (u : Fin 1) (b : Fin 4) (k : Fin 512) :
    ((cfg0.win 3).blk t).view.read (Elt Ideal) G (ix3 u b k)
      = G (ix3 (⟨t.val / 8, by have := t.isLt; have := N64; omega⟩ : Fin 8) b (colOf t k)) := by
  rw [View.read_apply]
  show G _ = G _
  congr 1
  funext a
  apply Fin.ext
  have hu : u.val = 0 := by omega
  match a with
  | ⟨0, _⟩ => show win0_3.index t 0 * 1 + 1 * u.val = t.val / 8; rw [(idx3 t).1]; omega
  | ⟨1, _⟩ => show win0_3.index t 1 * 4 + 1 * b.val = b.val; rw [(idx3 t).2.1]; omega
  | ⟨2, _⟩ => show win0_3.index t 2 * 512 + 1 * k.val = 512 * (t.val % 8) + k.val; rw [(idx3 t).2.2]; omega

/-- What the write-back of the row-minimum block writes at point t is all of what the body left in it. -/
theorem flushed2_eq (t : Fin cfg0.N) : (dats m 0 c).flushed 2 t = (outsAt0 m c t.val t.isLt).1 := by
  show (cfg0.win 2).cut (grid0.coords t) ((dats m 0 c).after 2 t) = _
  rw [after0_2]
  rfl

/-- What the write-back of the column-minimum block writes at point t is all of what the body left in it. -/
theorem flushed3_eq (t : Fin cfg0.N) : (dats m 0 c).flushed 3 t = (outsAt0 m c t.val t.isLt).2.1 := by
  show (cfg0.win 3).cut (grid0.coords t) ((dats m 0 c).after 3 t) = _
  rw [after0_3]
  rfl

/-- Every entry of the array of row minima lies in the block of a point that writes back: column n in the block of
    the last point of tile row n / 512, point 8·(n / 512) + 7. -/
theorem cover2 : ∀ i : ((cfg0.win 2).arr.view.loc (c.tc : Thread nD τ)).2.ty.Idx,
    ∃ t : Fin cfg0.N, (cfg0.win 2).flush t = true ∧ i ∈ ((cfg0.win 2).blk t).view.set := by
  intro i
  have h0 : (i 0 : Nat) < 4 := (i 0).isLt
  have h1 : (i 1 : Nat) < 4096 := (i 1).isLt
  have hN := N64
  let t : Fin cfg0.N := ⟨8 * ((i 1 : Nat) / 512) + 7, by omega⟩
  have ht : t.val = 8 * ((i 1 : Nat) / 512) + 7 := rfl
  refine ⟨t, (flush0_2 t).mpr (by omega), ?_⟩
  show i ∈ ((View.whole main_v2_0).slice (win0_2.rect t)).set
  rw [View.set_slice_whole, Rect.mem_set_unit]
  intro a
  match a with
  | ⟨0, _⟩ =>
    show win0_2.index t 0 * 4 ≤ (i 0 : Nat) ∧ (i 0 : Nat) < win0_2.index t 0 * 4 + 4
    rw [(idx2 t).1]; omega
  | ⟨1, _⟩ =>
    show win0_2.index t 1 * 512 ≤ (i 1 : Nat) ∧ (i 1 : Nat) < win0_2.index t 1 * 512 + 512
    rw [(idx2 t).2]; omega

/-- Every entry of the array of column minima lies in the block of a point (each writes back): entry (i, b, n) in the
    block of point 8·i + n / 512. -/
theorem cover3 : ∀ i : ((cfg0.win 3).arr.view.loc (c.tc : Thread nD τ)).2.ty.Idx,
    ∃ t : Fin cfg0.N, (cfg0.win 3).flush t = true ∧ i ∈ ((cfg0.win 3).blk t).view.set := by
  intro i
  have h0 : (i 0 : Nat) < 8 := (i 0).isLt
  have h1 : (i 1 : Nat) < 4 := (i 1).isLt
  have h2 : (i 2 : Nat) < 4096 := (i 2).isLt
  have hN := N64
  let t : Fin cfg0.N := ⟨8 * (i 0 : Nat) + (i 2 : Nat) / 512, by omega⟩
  have ht : t.val = 8 * (i 0 : Nat) + (i 2 : Nat) / 512 := rfl
  refine ⟨t, flush0_3 t, ?_⟩
  show i ∈ ((View.whole main_v2_1).slice (win0_3.rect t)).set
  rw [View.set_slice_whole, Rect.mem_set_unit]
  intro a
  match a with
  | ⟨0, _⟩ =>
    show win0_3.index t 0 * 1 ≤ (i 0 : Nat) ∧ (i 0 : Nat) < win0_3.index t 0 * 1 + 1
    rw [(idx3 t).1]; omega
  | ⟨1, _⟩ =>
    show win0_3.index t 1 * 4 ≤ (i 1 : Nat) ∧ (i 1 : Nat) < win0_3.index t 1 * 4 + 4
    rw [(idx3 t).2.1]; omega
  | ⟨2, _⟩ =>
    show win0_3.index t 2 * 512 ≤ (i 2 : Nat) ∧ (i 2 : Nat) < win0_3.index t 2 * 512 + 512
    rw [(idx3 t).2.2]; omega

end Cert.Chamfer.Cover

end
-- ==== Proof.MinTiles.lean ====
/-
  From minima over tiles to minima over the whole array.

  The 4096 points of a cloud are cut into 8 consecutive tiles of 512: point number 512 · i + r is point r of tile i,
  and every point is of that form exactly once (quotient and remainder by 512). So a statement about every point is a
  statement about every point of every tile.

  For an array D of squared distances, the row minimum at a point of x is the infimum of its row. The column minimum
  at a point m of y can be taken in two steps: first, tile by tile, the infimum of column m over the 512 points of x
  in that tile; then the minimum, over the 8 tiles, of those partial minima, folded from plus infinity. A bound lies
  below the result exactly when it lies below every partial minimum, that is, below every entry of the column: the
  universal property of the column minimum.
-/
import proofs.«117909_j69870527971439_2_alg».proof.Proof.Spec
import proofs.«117909_j69870527971439_2_alg».proof.Proof.LibMinReduce

noncomputable section

namespace Cert.Chamfer

open Idealize.ShloMosaic Idealize.ShloMosaic.ValueIdx

/-- The shape of the partial column minima: one [4, 4096] array per tile of x. -/
abbrev P8x4x4096 : Shape := ⟨3, ![8, 4, 4096]⟩

/-- Point `r` of tile `i`, as a point of the cloud. -/
def tileIx (i : Fin 8) (r : Fin 512) : Fin 4096 := ⟨512 * i.val + r.val, by have := i.isLt; have := r.isLt; omega⟩

/-- The minimum of each row of `D`, as an infimum. -/
def rowMinOf (D : Fin 4 → Fin 4096 → Fin 4096 → EReal) : P4x4096.Idx → EReal := fun j => ⨅ k : Fin 4096, D (j 0) (j 1) k

/-- The minimum of each column of `D` over the points of x in one tile, as an infimum. -/
def tileColMinOf (D : Fin 4 → Fin 4096 → Fin 4096 → EReal) : P8x4x4096.Idx → EReal :=
  fun j => ⨅ r : Fin 512, D (j 1) (tileIx (j 0) r) (j 2)

/-- Every point is point `n % 512` of tile `n / 512`, so "for every point" is "for every point of every tile". -/
theorem forall_tileIx (p : Fin 4096 → Prop) : (∀ n, p n) ↔ ∀ (i : Fin 8) (r : Fin 512), p (tileIx i r) := by
  constructor
  · intro h i r
    exact h _
  · intro h n
    have e : n = tileIx ⟨n.val / 512, by have := n.isLt; omega⟩ ⟨n.val % 512, Nat.mod_lt _ (by decide)⟩ :=
      Fin.ext (by show n.val = 512 * (n.val / 512) + n.val % 512; omega)
    rw [e]
    exact h _ _

/-- The infimum of each row has the universal property of the row minimum. -/
theorem isRowMin_rowMinOf (D : Fin 4 → Fin 4096 → Fin 4096 → EReal) : IsRowMin D (rowMinOf D) := by
  intro b n z
  show z ≤ ⨅ k : Fin 4096, D b n k ↔ _
  exact le_iInf_iff

/-- The same at a point of a tile, with the row's entries listed tile by tile. -/
theorem le_rowMinOf_tile (D : Fin 4 → Fin 4096 → Fin 4096 → EReal) (b : Fin 4) (i : Fin 8) (r : Fin 512) (z : EReal) :
    z ≤ rowMinOf D (ix2 b (tileIx i r)) ↔ ∀ (j : Fin 8) (k : Fin 512), z ≤ D b (tileIx i r) (tileIx j k) := by
  rw [isRowMin_rowMinOf D b (tileIx i r) z]
  exact forall_tileIx (fun m => z ≤ D b (tileIx i r) m)

/-- A bound is below a tile's partial column minimum exactly when it is below the column's entries in that tile. -/
theorem le_tileColMinOf (D : Fin 4 → Fin 4096 → Fin 4096 → EReal) (i : Fin 8) (b : Fin 4) (n : Fin 4096) (z : EReal) :
    z ≤ tileColMinOf D (ix3 i b n) ↔ ∀ r : Fin 512, z ≤ D b (tileIx i r) n := by
  show z ≤ ⨅ r : Fin 512, D b (tileIx i r) n ↔ _
  exact le_iInf_iff

/-- The minimum over the tiles of the partial column minima, folded from plus infinity, is the column minimum. -/
theorem isColMin_reduce (D : Fin 4 → Fin 4096 → Fin 4096 → EReal) (h' : P8x4x4096.ReducesTo [0] P4x4096)
    (hu : 0 < P0.numel) :
    IsColMin D (Host.reduce (FloatOps.minimumf (F := Ideal) (φ := .f32)) (tileColMinOf D)
      (constant (F := Ideal) P0 .f32 0x7F800000#32) h' hu) := by
  intro b m z
  have hR : P8x4x4096.Reduces [0] P4x4096 := by decide
  have hl : ∀ i : Fin 8, hR.lift (ix2 b m) i = ix3 i b m := fun i =>
    funext fun a => Fin.ext (by match a with | ⟨0, _⟩ => rfl | ⟨1, _⟩ => rfl | ⟨2, _⟩ => rfl)
  rw [Cert.LibMinReduce.le_hostReduce_minimumf_iff (φ := .f32) _ _ h' hR hu (ix2 b m) z,
    forall_tileIx (fun n => z ≤ D b n m)]
  constructor
  · intro h i r
    have := h.2 i
    rw [hl, le_tileColMinOf] at this
    exact this r
  · intro h
    refine ⟨?_, fun (i : Fin 8) => ?_⟩
    · show z ≤ Ideal.ofBits .f32 0x7F800000#32
      rw [Cert.LibMinReduce.ofBits_inf_f32]; exact le_top
    · rw [hl i, le_tileColMinOf]; exact h i

end Cert.Chamfer

end
-- ==== Proof.KernelArrays.lean ====
/-
  What the kernel's two output arrays hold when the grid is done.

  The row-minimum array [4, 4096] is written block by block, block i at the last point of grid row i, with the
  accumulator, which by then has seen all eight tiles of the row: so entry (b, n) is the minimum over ALL points of y of
  the squared distance from point n of x. The column-minimum array [8, 4, 4096] is written at every point (i, j), block
  (i, ·, j), with the tile's column minima: so entry (i, b, m) is the minimum over the 512 points of x in tile i of the
  squared distance to point m of y. Every block is written exactly where the array is read back, and the blocks cover
  the arrays.
-/
import proofs.«117909_j69870527971439_2_alg».proof.Proof.KernelInvariant
import proofs.«117909_j69870527971439_2_alg».proof.Proof.KernelCover
import proofs.«117909_j69870527971439_2_alg».proof.Proof.MinTiles

noncomputable section

open Idealize.ShloMosaic Idealize.ShloMosaic.TcCoe Idealize.SL.Sem Idealize.ShloMosaic.ValueIdx
open Idealize.ShloMosaic.Pipeline (Dat)

namespace Cert.Chamfer.Arr

open Cert.KernelIdeal Cert.KernelIdeal.Gen Cert.Chamfer.Blocks Cert.Chamfer.Inv

variable (m : (ℓ : Loc nD τ sig) → Buf (Elt Ideal) ℓ) (c : Dev nD)

/-- The squared distances between the points of the two argument arrays, in the kernel's form. -/
abbrev D : Fin 4 → Fin 4096 → Fin 4096 → EReal :=
  dK (m ((c : Thread nD τ).loc main_arg0)) (m ((c : Thread nD τ).loc main_arg1))

/-- Point r of the first tile at a grid point of row i is point r of tile i of x; point k of the second tile at a grid
    point of column j is point k of tile j of y. -/
theorem rowOf_tile (t : Fin cfg0.N) (i : Fin 8) (hi : t.val / 8 = i.val) (r : Fin 512) : rowOf t r = tileIx i r :=
  Fin.ext (by show 512 * (t.val / 8) + r.val = 512 * i.val + r.val; rw [hi])
theorem colOf_tile (t : Fin cfg0.N) (j : Fin 8) (hj : t.val % 8 = j.val) (k : Fin 512) : colOf t k = tileIx j k :=
  Fin.ext (by show 512 * (t.val % 8) + k.val = 512 * j.val + k.val; rw [hj])

/-- The tile at grid point (i, j) is the squared distances between tile i of x and tile j of y. -/
theorem tileAt_tile (t : Fin cfg0.N) (i j : Fin 8) (hi : t.val / 8 = i.val) (hj : t.val % 8 = j.val)
    (b : Fin 4) (r k : Fin 512) : tileAt m c t b r k = D m c b (tileIx i r) (tileIx j k) := by
  rw [tileAt_eq m c t b r k, rowOf_tile t i hi, colOf_tile t j hj]

/-- What a grid row's last point writes back into the row-minimum array is the block of the true row minima. -/
theorem flushed2 (t : Fin cfg0.N) (hf : (cfg0.win 2).flush t = true) :
    (dats m 0 c).flushed 2 t = ((cfg0.win 2).blk t).view.read (Elt Ideal) (rowMinOf (D m c)) := by
  have h1 : t.val % 8 = 7 := (flush0_2 t).mp hf
  have hN := N64
  have ht := t.isLt
  rw [Cover.flushed2_eq m c t]
  funext y
  obtain ⟨b, r, rfl⟩ : ∃ (b : Fin 4) (r : Fin 512), y = ix2 b r := ⟨y 0, y 1, eq_ix2 y⟩
  rw [Cover.blk2_read c (rowMinOf (D m c)) t b r]
  refine eq_of_forall_le_iff fun z => ?_
  rw [le_row_iff m c t h1 b r z, rowOf_tile t ⟨t.val / 8, by omega⟩ rfl r, le_rowMinOf_tile]
  constructor
  · intro h j k
    have hj := j.isLt
    have e := h (8 * (t.val / 8) + j.val) (by omega) (by omega) k
    rwa [tileAt_tile m c ⟨8 * (t.val / 8) + j.val, by omega⟩ ⟨t.val / 8, by omega⟩ j
      (by show (8 * (t.val / 8) + j.val) / 8 = t.val / 8; omega)
      (by show (8 * (t.val / 8) + j.val) % 8 = j.val; omega) b r k] at e
  · intro h n' hn' hd k
    rw [tileAt_tile m c ⟨n', hn'⟩ ⟨t.val / 8, by omega⟩ ⟨n' % 8, by omega⟩ hd rfl b r k]
    exact h _ k

/-- So the row-minimum array ends holding the minimum, over all points of y, of each point of x's squared distances. -/
theorem final2 : (dats m 0 c).arrAt 2 cfg0.N = rowMinOf (D m c) :=
  (dats m 0 c).arrAt_eq_of_cover 2 (rowMinOf (D m c)) (flushed2 m c) (Cover.cover2 c)

/-- What each grid point writes back into the column-minimum array is the block of its tile's column minima. -/
theorem flushed3 (t : Fin cfg0.N) (hf : (cfg0.win 3).flush t = true) :
    (dats m 0 c).flushed 3 t = ((cfg0.win 3).blk t).view.read (Elt Ideal) (tileColMinOf (D m c)) := by
  have hN := N64
  have ht := t.isLt
  rw [Cover.flushed3_eq m c t]
  funext y
  obtain ⟨u, b, k, rfl⟩ : ∃ (u : Fin 1) (b : Fin 4) (k : Fin 512), y = ix3 u b k := ⟨y 0, y 1, y 2, eq_ix3 y⟩
  obtain rfl : u = 0 := Subsingleton.elim _ _
  rw [Cover.blk3_read c (tileColMinOf (D m c)) t 0 b k]
  refine eq_of_forall_le_iff fun z => ?_
  rw [le_col_iff m c t b k z, colOf_tile t ⟨t.val % 8, by omega⟩ rfl k, le_tileColMinOf]
  constructor
  · intro h r
    have e := h r
    rwa [tileAt_tile m c t ⟨t.val / 8, by omega⟩ ⟨t.val % 8, by omega⟩ rfl rfl b r k] at e
  · intro h r
    rw [tileAt_tile m c t ⟨t.val / 8, by omega⟩ ⟨t.val % 8, by omega⟩ rfl rfl b r k]
    exact h r

/-- So the column-minimum array ends holding, per tile of x, the minimum over that tile of the squared distances to
    each point of y. -/
theorem final3 : (dats m 0 c).arrAt 3 cfg0.N = tileColMinOf (D m c) :=
  (dats m 0 c).arrAt_eq_of_cover 3 (tileColMinOf (D m c)) (flushed3 m c) (Cover.cover3 c)

end Cert.Chamfer.Arr

end
-- ==== Proof.KernelTail.lean ====
/-
  The lines of the kernel's program that follow the distance region, read as one function of the region's two
  output arrays. The region leaves the row minima and, tile by tile, partial column minima. The lines after it
  take the minimum of the partial column minima over the tiles, and then finish as the specification's tail does:
  the mean of each array of minima over its points, the two means added, halved, averaged over the batches and scaled.
-/
import proofs.«117909_j69870527971439_2_alg».proof.Proof.Spec
import proofs.«117909_j69870527971439_2_alg».proof.Proof.Gen.KernelIdeal.Frame
import Idealize.ShloMosaic.Lib.Pipeline.Value
import Idealize.ShloMosaic.Lib.StableHlo.Run
import Idealize.ShloMosaic.Lib.Tactic

noncomputable section

namespace Cert.Chamfer.Tail

open Cert.KernelIdeal Cert.KernelIdeal.Gen
open Idealize.ShloMosaic Idealize.ShloMosaic.TcCoe Idealize.SL.Sem

variable (m : (ℓ : Loc nD τ sig) → Buf (Elt Ideal) ℓ)

/-- The program's result is the specification's tail applied to the minimum over the tiles of the partial column
    minima (the column side) and to the row minima (the row side), both as the region leaves them. -/
theorem tail_eq (c : Dev nD) :
    Pipeline.afterTail₀ cfgs (dats m) 0 (V0 m) [hostOps1] c main_v15
      = Cert.Chamfer.tail reducesTo_S4x4096_S4_d1 h_S_ bcast_S_S4 reducesTo_S4_S_d0
          (Host.reduce FloatOps.minimumf ((dats m 0 c).arrAt 3 cfg0.N : S8x4x4096.Idx → EReal)
            (constant (F := Ideal) S_ .f32 0x7F800000#32) reducesTo_S8x4x4096_S4x4096_d0 h_S_)
          ((dats m 0 c).arrAt 2 cfg0.N) := by
  unfold Pipeline.afterTail₀
  show StableHlo.after hostOps1 _ (Proc.devRef .tc main_v15) = _
  after_results
  have h2 : Pipeline.withArrays (cfgs 0).spec c (V0 m c) (fun w => (dats m 0 c).arrAt w (cfgs 0).N) (Proc.devRef .tc main_v2_0)
      = (dats m 0 c).arrAt 2 cfg0.N := Pipeline.withArrays_arr spec0 launch0.win.arr_inj c _ _ 2
  have h3 : Pipeline.withArrays (cfgs 0).spec c (V0 m c) (fun w => (dats m 0 c).arrAt w (cfgs 0).N) (Proc.devRef .tc main_v2_1)
      = (dats m 0 c).arrAt 3 cfg0.N := Pipeline.withArrays_arr spec0 launch0.win.arr_inj c _ _ 3
  rw [h2, h3]
  rfl

end Cert.Chamfer.Tail

end
-- ==== Proof.KernelRun.lean ====
/-
  The idealized kernel's run, read: every weakly fair execution ends with the result at the shared tail applied to the
  true column minima (the host's minimum, over the eight tiles of x, of the per-tile column minima the kernel wrote)
  and the true row minima the kernel wrote, both of the squared distances in the kernel's form; the two argument
  arrays end unchanged.
-/
import proofs.«117909_j69870527971439_2_alg».proof.Proof.KernelArrays
import proofs.«117909_j69870527971439_2_alg».proof.Proof.KernelTail

noncomputable section

open Idealize.ShloMosaic Idealize.ShloMosaic.TcCoe Idealize.SL.Sem

namespace Cert.Chamfer.Run

open Cert.KernelIdeal Cert.KernelIdeal.Gen

variable (m : (ℓ : Loc nD τ sig) → Buf (Elt Ideal) ℓ) (ρ : Dev nD → PrngReg)

/-- The kernel's result as a function of its two argument arrays. -/
def result (c : Dev nD) : FVec Ideal S_ .f32 :=
  Cert.Chamfer.tail reducesTo_S4x4096_S4_d1 h_S_ bcast_S_S4 reducesTo_S4_S_d0
    (Host.reduce FloatOps.minimumf (tileColMinOf (Arr.D m c)) (constant (F := Ideal) S_ .f32 0x7F800000#32)
      reducesTo_S8x4x4096_S4x4096_d0 h_S_)
    (rowMinOf (Arr.D m c))

theorem run : θ_run defs (onTc (τ := τ) (main (F := Ideal))) ⟨m, fun _ => 0, ρ⟩ fun r => ∀ c : Dev nD,
      r.2.mem ((c.tc : Thread nD τ).loc main_v15) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v15 (Pipeline.mem_restRefs_of main_v15 (by decide) (by decide))).trans
        ((Tail.tail_eq m c).trans (by unfold result; rw [Arr.final2 m c, Arr.final3 m c])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.Chamfer.Run

end
-- ==== Proof.lean ====
/-
  The Chamfer loss between two clouds x, y of 4096 points in three dimensions (4 batches): with d(n, m) the squared
  distance between point n of x and point m of y, the loss is 100 times the batch mean of
  ½ · (mean over m of min over n of d(n, m) + mean over n of min over m of d(n, m)).

  The kernel forms d tile by tile, 512 × 512 points at a time over an 8 × 8 grid, directly as the sum of the three
  squared coordinate differences; it keeps running row minima across a grid row in an accumulator, writes them out
  at the row's end, writes each tile's column minima per tile, and lets the host take the minimum over the eight
  tiles and finish the means. The reference expands the square, |a|² + |b|² − 2⟨a, b⟩, forms the whole
  4096 × 4096 array at once and takes both minima over whole axes.

  Over the extended reals the two agree for finite inputs, and finiteness is what is used: the two forms of d agree
  on real coordinates (at an infinite coordinate the expanded form need not), a minimum does not depend on the order
  or the tiling in which it is taken (it is characterized by its universal property), and from the two arrays of minima
  on both programs run the same operations on the same literals.

  The three frames are the generated runs (the reference's with its result dropped); the idealization rewrote no
  operation of the kernel, so there is nothing to preserve.
-/
import proofs.«117909_j69870527971439_2_alg».proof.Defs
import proofs.«117909_j69870527971439_2_alg».proof.Proof.Gen.Kernel
import proofs.«117909_j69870527971439_2_alg».proof.Proof.Gen.Kernel.Skeleton
import proofs.«117909_j69870527971439_2_alg».proof.Proof.Gen.Kernel.Launch
import proofs.«117909_j69870527971439_2_alg».proof.Proof.Gen.Kernel.Points
import proofs.«117909_j69870527971439_2_alg».proof.Proof.Gen.Kernel.Frame
import proofs.«117909_j69870527971439_2_alg».proof.Proof.Gen.KernelIdeal
import proofs.«117909_j69870527971439_2_alg».proof.Proof.Gen.KernelIdeal.Skeleton
import proofs.«117909_j69870527971439_2_alg».proof.Proof.Gen.KernelIdeal.Launch
import proofs.«117909_j69870527971439_2_alg».proof.Proof.Gen.KernelIdeal.Points
import proofs.«117909_j69870527971439_2_alg».proof.Proof.Gen.KernelIdeal.Frame
import proofs.«117909_j69870527971439_2_alg».proof.Proof.Gen.ReferenceIdeal
import proofs.«117909_j69870527971439_2_alg».proof.Proof.Gen.ReferenceIdeal.Run
import proofs.«117909_j69870527971439_2_alg».proof.Proof.Gen.ReferenceIdeal.Read
import proofs.«117909_j69870527971439_2_alg».proof.Proof.Gen.Pre_finite_inputs
import proofs.«117909_j69870527971439_2_alg».proof.Proof.Algebra
import proofs.«117909_j69870527971439_2_alg».proof.Proof.Finite
import proofs.«117909_j69870527971439_2_alg».proof.Proof.RefValue
import proofs.«117909_j69870527971439_2_alg».proof.Proof.KernelRun
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On finite inputs the idealized kernel and the idealized reference end at one value. The kernel's run ends at the
    shared tail of the true minima of the squared distances in the kernel's form; the reference's at the same tail of
    its own two minimum-reductions of the squared distances in the expanded form. The two forms agree on real
    coordinates, and minima of one array are unique. -/
theorem algebraic : Cert.algebraic_KernelIdeal_ReferenceIdeal := by
  intro m ρ m' ρ' hpre hagree
  refine ⟨fun c => Cert.Chamfer.Run.result m c, Cert.Chamfer.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.Chamfer.Ref.ref_tail, (hagree c).1, (hagree c).2]
  obtain ⟨hx, hy⟩ := Cert.Chamfer.finite_of_pre m hpre c
  have hD := Cert.Chamfer.dK_eq_dR _ _ hx hy
  unfold Cert.Chamfer.Run.result Cert.Chamfer.Arr.D
  beta_reduce
  rw [hD,
    Cert.Chamfer.IsColMin.unique (Cert.Chamfer.Ref.ref_colmin _ _)
      (Cert.Chamfer.isColMin_reduce _ Cert.KernelIdeal.Gen.reducesTo_S8x4x4096_S4x4096_d0 Cert.KernelIdeal.Gen.h_S_),
    Cert.Chamfer.IsRowMin.unique (Cert.Chamfer.Ref.ref_rowmin _ _) (Cert.Chamfer.isRowMin_rowMinOf _)]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
